-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x4 : Shape := ⟨2, ![600000, 4]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x4 : S_.BroadcastsInDim S600000x4 (![] : Fin 0 → Fin S600000x4.rank)
  reducesTo_S600000x4_S_d0_1 : S600000x4.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S3x128x128 .f32) (main_arg6 : FVec F S3x128 .f32) (main_arg7 : FVec F S128x40 .f32) (main_arg8 : FVec F S40 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S600000x4 .f32) (main_arg2 : IVec S2x600000 32) (main_arg3 : FVec F S3x128x128 .f32) (main_arg4 : FVec F S3x128 .f32) (main_arg5 : FVec F S3x128x128 .f32) (main_arg6 : FVec F S3x128 .f32) (main_arg7 : FVec F S128x40 .f32) (main_arg8 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x4 .f32 := Host.absf main_arg1
  let main_cst_0 : FVec F S_ .f32 := constant S_ .f32 0x7F800000#32
  let main_v5 : FVec F S600000x4 .f32 := broadcastInDim S600000x4 ![] bcast_S_S600000x4 main_cst_0
  let main_v6 : IVec S600000x4 1 := cmpf .olt main_v4 main_v5
  let main_c_1 : IVec S_ 1 := constantI S_ 1 1#1
  let main_v7 : IVec S_ 1 := (fun x v => Host.reduce IntOp.andi x v reducesTo_S600000x4_S_d0_1 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_v13 main_v16
-- ==== Kernel.lean ====
abbrev S50000x128 : Shape := ⟨2, ![50000, 128]⟩
abbrev S600000x4 : Shape := ⟨2, ![600000, 4]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x40 : Shape := ⟨2, ![1, 40]⟩
abbrev S50000x40 : Shape := ⟨2, ![50000, 40]⟩
abbrev S2000x128 : Shape := ⟨2, ![2000, 128]⟩
abbrev S2000x40 : Shape := ⟨2, ![2000, 40]⟩

abbrev nBuf : Space → Nat
  | .hbm => 92
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S600000x4, .f32⟩
  | .hbm, ⟨2, _⟩ => ⟨S2x600000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S128x40, .f32⟩
  | .hbm, ⟨8, _⟩ => ⟨S40, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S50000x128, .bf16⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S600000x128, .bf16⟩
  | .hbm, ⟨23, _⟩ => ⟨S600000x128, .f32⟩
  | .hbm, ⟨24, _⟩ => ⟨S_, .f32⟩
  | .hbm, ⟨25, _⟩ => ⟨S50000x128, .f32⟩
  | .hbm, ⟨26, _⟩ => ⟨S600000x1, .i32⟩
  | .hbm, ⟨27, _⟩ => ⟨S50000x128, .f32⟩
  | .hbm, ⟨28, _⟩ => ⟨S1x128x128, .f32⟩
  | .hbm, ⟨29, _⟩ => ⟨S128x128, .f32⟩
  | .hbm, ⟨30, _⟩ => ⟨S1x128, .f32⟩
  | .hbm, ⟨31, _⟩ => ⟨S128, .f32⟩
  | .hbm, ⟨32, _⟩ => ⟨S1x128x128, .f32⟩
  | .hbm, ⟨33, _⟩ => ⟨S128x128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S1x128, .f32⟩
  | .hbm, ⟨38, _⟩ => ⟨S50000x128, .f32⟩
  | .hbm, ⟨39, _⟩ => ⟨S50000x128, .bf16⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .bf16⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S1x128x128, .f32⟩
  | .hbm, ⟨55, _⟩ => ⟨S128x128, .f32⟩
  | .hbm, ⟨56, _⟩ => ⟨S1x128, .f32⟩
  | .hbm, ⟨57, _⟩ => ⟨S128, .f32⟩
  | .hbm, ⟨58, _⟩ => ⟨S1x128x128, .f32⟩
  | .hbm, ⟨59, _⟩ => ⟨S128x128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S1x128, .f32⟩
  | .hbm, ⟨64, _⟩ => ⟨S50000x128, .f32⟩
  | .hbm, ⟨65, _⟩ => ⟨S50000x128, .bf16⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .bf16⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S1x128x128, .f32⟩
  | .hbm, ⟨81, _⟩ => ⟨S128x128, .f32⟩
  | .hbm, ⟨82, _⟩ => ⟨S1x128, .f32⟩
  | .hbm, ⟨83, _⟩ => ⟨S128, .f32⟩
  | .hbm, ⟨84, _⟩ => ⟨S1x128x128, .f32⟩
  | .hbm, ⟨85, _⟩ => ⟨S128x128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S1x40, .f32⟩
  | .hbm, ⟨91, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x40, .f32⟩
  | .local _ .vmem, ⟨29, _⟩ => ⟨S1x40, .f32⟩
  | .local _ .vmem, ⟨30, _⟩ => ⟨S2000x40, .f32⟩
  | .local _ .vmem, ⟨31, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c : Ref sig .tc := ⟨.hbm, 14, rfl⟩
abbrev main_call0_v5 : Ref sig .tc := ⟨.hbm, 15, rfl⟩
abbrev main_call0_v6 : Ref sig .tc := ⟨.hbm, 16, rfl⟩
abbrev main_call0_c_0 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_cst : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_v23 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_c_1 : Ref sig .tc := ⟨.hbm, 40, rfl⟩
abbrev main_call0_v28 : Ref sig .tc := ⟨.hbm, 41, rfl⟩
abbrev main_call0_v29 : Ref sig .tc := ⟨.hbm, 42, rfl⟩
abbrev main_call0_c_2 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_cst_3 : Ref sig .tc := ⟨.hbm, 50, rfl⟩
abbrev main_call0_v36 : Ref sig .tc := ⟨.hbm, 51, rfl⟩
abbrev main_call0_v37 : Ref sig .tc := ⟨.hbm, 52, rfl⟩
abbrev main_call0_v38 : Ref sig .tc := ⟨.hbm, 53, rfl⟩
abbrev main_call0_v39 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43 : Ref sig .tc := ⟨.hbm, 58, rfl⟩
abbrev main_call0_v44 : Ref sig .tc := ⟨.hbm, 59, rfl⟩
abbrev main_call0_v45 : Ref sig .tc := ⟨.hbm, 60, rfl⟩
abbrev main_call0_v46 : Ref sig .tc := ⟨.hbm, 61, rfl⟩
abbrev main_call0_v47 : Ref sig .tc := ⟨.hbm, 62, rfl⟩
abbrev main_call0_v48 : Ref sig .tc := ⟨.hbm, 63, rfl⟩
abbrev main_call0_v49 : Ref sig .tc := ⟨.hbm, 64, rfl⟩
abbrev main_call0_v50 : Ref sig .tc := ⟨.hbm, 65, rfl⟩
abbrev main_call0_c_4 : Ref sig .tc := ⟨.hbm, 66, rfl⟩
abbrev main_call0_v51 : Ref sig .tc := ⟨.hbm, 67, rfl⟩
abbrev main_call0_v52 : Ref sig .tc := ⟨.hbm, 68, rfl⟩
abbrev main_call0_c_5 : Ref sig .tc := ⟨.hbm, 69, rfl⟩
abbrev main_call0_v53 : Ref sig .tc := ⟨.hbm, 70, rfl⟩
abbrev main_call0_v54 : Ref sig .tc := ⟨.hbm, 71, rfl⟩
abbrev main_call0_v55 : Ref sig .tc := ⟨.hbm, 72, rfl⟩
abbrev main_call0_v56 : Ref sig .tc := ⟨.hbm, 73, rfl⟩
abbrev main_call0_v57 : Ref sig .tc := ⟨.hbm, 74, rfl⟩
abbrev main_call0_v58 : Ref sig .tc := ⟨.hbm, 75, rfl⟩
abbrev main_call0_cst_6 : Ref sig .tc := ⟨.hbm, 76, rfl⟩
abbrev main_call0_v59 : Ref sig .tc := ⟨.hbm, 77, rfl⟩
abbrev main_call0_v60 : Ref sig .tc := ⟨.hbm, 78, rfl⟩
abbrev main_call0_v61 : Ref sig .tc := ⟨.hbm, 79, rfl⟩
abbrev main_call0_v62 : Ref sig .tc := ⟨.hbm, 80, rfl⟩
abbrev main_call0_v63 : Ref sig .tc := ⟨.hbm, 81, rfl⟩
abbrev main_call0_v64 : Ref sig .tc := ⟨.hbm, 82, rfl⟩
abbrev main_call0_v65 : Ref sig .tc := ⟨.hbm, 83, rfl⟩
abbrev main_call0_v66 : Ref sig .tc := ⟨.hbm, 84, rfl⟩
abbrev main_call0_v67 : Ref sig .tc := ⟨.hbm, 85, rfl⟩
abbrev main_call0_v68 : Ref sig .tc := ⟨.hbm, 86, rfl⟩
abbrev main_call0_v69 : Ref sig .tc := ⟨.hbm, 87, rfl⟩
abbrev main_call0_v70 : Ref sig .tc := ⟨.hbm, 88, rfl⟩
abbrev main_call0_v71 : Ref sig .tc := ⟨.hbm, 89, rfl⟩
abbrev main_call0_v72 : Ref sig .tc := ⟨.hbm, 90, rfl⟩
abbrev main_v0 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg8_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem8_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S2000x40 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x40.size a ≤ S128x40.size a
  hwx2_6 : ∀ i : grid2.Coords, EltTy.bits .f32 = 32 ∨ (Rect.block (s := S128x40) S128x40.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x40.size a ≤ S1x40.size a
  hwx2_7 : ∀ i : grid2.Coords, EltTy.bits .f32 = 32 ∨ (Rect.block (s := S1x40) S1x40.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x40.size a ≤ S50000x40.size a
  hwx2_8 : ∀ i : grid2.Coords, EltTy.bits .f32 = 32 ∨ (Rect.block (s := S50000x40) S2000x40.size (cc2_transform_8 i) (hinb2_8 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v26) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v38) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v49) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v61) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v63) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v70) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v67) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v71) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S128x40.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v72) S1x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v0) S2000x40.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S50000x128 : Shape := ⟨2, ![50000, 128]⟩
abbrev S600000x4 : Shape := ⟨2, ![600000, 4]⟩
abbrev S2x600000 : Shape := ⟨2, ![2, 600000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x40 : Shape := ⟨2, ![50000, 40]⟩
abbrev S1x40 : Shape := ⟨2, ![1, 40]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x4, .f32⟩
  | .hbm, ⟨2, _⟩ => ⟨S2x600000, .i32⟩
  | .hbm, ⟨3, _⟩ => ⟨S3x128x128, .f32⟩
  | .hbm, ⟨4, _⟩ => ⟨S3x128, .f32⟩
  | .hbm, ⟨5, _⟩ => ⟨S3x128x128, .f32⟩
  | .hbm, ⟨6, _⟩ => ⟨S3x128, .f32⟩
  | .hbm, ⟨7, _⟩ => ⟨S128x40, .f32⟩
  | .hbm, ⟨8, _⟩ => ⟨S40, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S50000x128, .f32⟩
  | .hbm, ⟨27, _⟩ => ⟨S1x128x128, .f32⟩
  | .hbm, ⟨28, _⟩ => ⟨S128x128, .f32⟩
  | .hbm, ⟨29, _⟩ => ⟨S50000x128, .f32⟩
  | .hbm, ⟨30, _⟩ => ⟨S1x128, .f32⟩
  | .hbm, ⟨31, _⟩ => ⟨S128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S1x128x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S50000x128, .f32⟩
  | .hbm, ⟨60, _⟩ => ⟨S600000x1, .i32⟩
  | .hbm, ⟨61, _⟩ => ⟨S50000x128, .f32⟩
  | .hbm, ⟨62, _⟩ => ⟨S50000x128, .f32⟩
  | .hbm, ⟨63, _⟩ => ⟨S1x128x128, .f32⟩
  | .hbm, ⟨64, _⟩ => ⟨S128x128, .f32⟩
  | .hbm, ⟨65, _⟩ => ⟨S50000x128, .f32⟩
  | .hbm, ⟨66, _⟩ => ⟨S1x128, .f32⟩
  | .hbm, ⟨67, _⟩ => ⟨S128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S128, .f32⟩
  | .hbm, ⟨79, _⟩ => ⟨S1x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S_, .f32⟩
  | .hbm, ⟨95, _⟩ => ⟨S50000x128, .f32⟩
  | .hbm, ⟨96, _⟩ => ⟨S600000x1, .i32⟩
  | .hbm, ⟨97, _⟩ => ⟨S50000x128, .f32⟩
  | .hbm, ⟨98, _⟩ => ⟨S50000x128, .f32⟩
  | .hbm, ⟨99, _⟩ => ⟨S1x128x128, .f32⟩
  | .hbm, ⟨100, _⟩ => ⟨S128x128, .f32⟩
  | .hbm, ⟨101, _⟩ => ⟨S50000x128, .f32⟩
  | .hbm, ⟨102, _⟩ => ⟨S1x128, .f32⟩
  | .hbm, ⟨103, _⟩ => ⟨S128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S1x128x128, .f32⟩
  | .hbm, ⟨111, _⟩ => ⟨S128x128, .f32⟩
  | .hbm, ⟨112, _⟩ => ⟨S50000x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | .hbm, ⟨121, _⟩ => ⟨S50000x40, .f32⟩
  | .hbm, ⟨122, _⟩ => ⟨S1x40, .f32⟩
  | .hbm, ⟨123, _⟩ => ⟨S50000x40, .f32⟩
  | .hbm, ⟨124, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call1_cst : Ref sig .tc := ⟨.hbm, 46, rfl⟩
abbrev main_call1_v0 : Ref sig .tc := ⟨.hbm, 47, rfl⟩
abbrev main_v32 : Ref sig .tc := ⟨.hbm, 48, rfl⟩
abbrev main_c_1 : Ref sig .tc := ⟨.hbm, 49, rfl⟩
abbrev main_v33 : Ref sig .tc := ⟨.hbm, 50, rfl⟩
abbrev main_v34 : Ref sig .tc := ⟨.hbm, 51, rfl⟩
abbrev main_c_2 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call2_cst : Ref sig .tc := ⟨.hbm, 71, rfl⟩
abbrev main_call2_v0 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call3_cst : Ref sig .tc := ⟨.hbm, 82, rfl⟩
abbrev main_call3_v0 : Ref sig .tc := ⟨.hbm, 83, rfl⟩
abbrev main_v61 : Ref sig .tc := ⟨.hbm, 84, rfl⟩
abbrev main_c_4 : Ref sig .tc := ⟨.hbm, 85, rfl⟩
abbrev main_v62 : Ref sig .tc := ⟨.hbm, 86, rfl⟩
abbrev main_v63 : Ref sig .tc := ⟨.hbm, 87, rfl⟩
abbrev main_c_5 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_call4_cst : Ref sig .tc := ⟨.hbm, 107, rfl⟩
abbrev main_call4_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call5_cst : Ref sig .tc := ⟨.hbm, 118, rfl⟩
abbrev main_call5_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.WholeRun.lean ====
/-
  The idealized kernel's run with every buffer's final contents kept.

  @main is three launches among stretches of host operations. The contents of the TensorCore's buffers at each boundary are a
  fold from the launch memory: a stretch of host operations applies its operations' functions, a launch replaces its
  arrays by what its write-backs leave and keeps every other buffer. `run_all` says every weakly fair execution terminates
  with EVERY unscoped buffer at the end of that fold, for any post that follows from it; `run_result` reads the result
  buffer and the nine argument buffers off it.
-/
import proofs.«109705_j44908178047327_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in the final memory every unscoped buffer
    of every core holds the end of the fold (`W6`); so any post that follows from that holds. -/
theorem run_all {Q : PUnit × MemSt nD τ sig (Elt F) → Prop}
    (hQ : ∀ s : MemSt nD τ sig (Elt F),
      (∀ c : Dev nD, ∀ b ∈ Pipeline.ucRefs τ sig, s.mem (((c : Thread nD τ)).1, b) = W6 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := hQ)

/-- The run with the result buffer at the end of the fold and the argument buffers as launched. -/
theorem run_result : θ_run defs (onTc (τ := τ) (main (F := F))) ⟨m, fun _ => 0, ρ⟩ (fun r => ∀ c : Dev nD,
      r.2.mem ((c.tc : Thread nD τ).loc main_v0) = W6 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_all m ρ (fun s h c =>
      ⟨h c _ (mem_uc main_v0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Whole

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibDense.lean ====
/-
  An affine layer followed by a clamp at zero, read at an entry given by its coordinates, for any extents:
  `max (Σ_e x_{p e} · W_{e q} + β_q) 0`, on the extended reals, in the two spellings programs print.

  * The vector unit's: a plain product `[a, k] × [k, b]` into a zero accumulator, plus a `[1, b]` row broadcast down the
    rows, then the maximum with a splat of the zero word (`vector_dense_apply`).
  * The host's: a plain `dot_general`, plus a `[b]` vector placed as a row and broadcast down the rows, then the
    maximum with the zero word broadcast from a scalar (`host_dense_apply`).
  Neither needs any finiteness: nothing is rearranged.
-/
import proofs.«109705_j44908178047327_2_alg».proof.Proof.LibRowMax
import Idealize.ShloMosaic.Lib.ValueLayout
import Idealize.ShloMosaic.Lib.Pipeline.Value
import Idealize.ShloMosaic.PureOps.Ideal.Laws

noncomputable section

namespace Cert.LibDense

open Idealize.ShloMosaic Idealize.ShloMosaic.ValueIdx Cert.LibRowMax

variable {a k b : ℕ} {φ₁ φ₂ : FTy}

/-- The vector unit's affine layer with clamp, at `(p, q)`. The weight matrix and the bias row come through identity
    casts, as a kernel body loads them. -/
theorem vector_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨2, ![1, b]⟩ .f32)
    (hW : (⟨2, ![k, b]⟩ : Shape).ShapeCasts ⟨2, ![k, b]⟩) (hβ : (⟨2, ![1, b]⟩ : Shape).ShapeCasts ⟨2, ![1, b]⟩)
    (hbc : (⟨2, ![1, b]⟩ : Shape).Broadcasts ⟨2, ![a, b]⟩) (p : Fin a) (q : Fin b) :
    maximumf (addf (matmul D none x (shapeCast ⟨2, ![k, b]⟩ W hW) (constant ⟨2, ![a, b]⟩ .f32 0x00000000#32))
        (broadcastTo ⟨2, ![a, b]⟩ (shapeCast ⟨2, ![1, b]⟩ β hβ) hbc))
      (broadcast ⟨2, ![a, b]⟩ (Scalar.ofBits (F := Ideal) .f32 0x00000000#32)) (ix2 p q)
    = max (∑ e : Fin k, x (ix2 p e) * W (ix2 e q) + β (ix2 (0 : Fin 1) q)) (Ideal.ofBits .f32 0x00000000#32) := by
  subst hD
  rw [shapeCast_self, shapeCast_self]
  show max (FloatOps.matmul (plainDims a k b wf) none x W (constant ⟨2, ![a, b]⟩ .f32 0x00000000#32) (ix2 p q)
      + broadcastTo ⟨2, ![a, b]⟩ β hbc (ix2 p q)) (Ideal.ofBits .f32 0x00000000#32) = _
  rw [matmul_plain_apply wf none x W p q, broadcastTo_1b_ab_apply β hbc p q]

/-- The host's affine layer with clamp, at `(p, q)`. -/
theorem host_dense_apply (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ φ₁) (W : FVec Ideal ⟨2, ![k, b]⟩ φ₂) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf (Host.dotGeneral D none x W)
        (broadcastInDim ⟨2, ![a, b]⟩ ![0, 1] h2 (broadcastInDim ⟨2, ![1, b]⟩ ![1] h1 β)))
      (broadcastInDim ⟨2, ![a, b]⟩ ![] h0 (constant (F := Ideal) ⟨0, ![]⟩ .f32 0x00000000#32)) (ix2 p q)
    = max (∑ e : Fin k, x (ix2 p e) * W (ix2 e q) + β (ix1 q)) (Ideal.ofBits .f32 0x00000000#32) := by
  subst hD
  have hz : broadcastInDim ⟨2, ![a, b]⟩ ![] h0 (constant (F := Ideal) ⟨0, ![]⟩ .f32 0x00000000#32) (ix2 p q)
      = Ideal.ofBits .f32 0x00000000#32 :=
    broadcastInDim_apply _ h0 _ (ix2 p q) ix0 (fun ax => ax.elim0)
  show max (FloatOps.dotGeneral (plainDims a k b wf) none _ x W (ix2 p q)
      + broadcastInDim ⟨2, ![a, b]⟩ ![0, 1] h2 (broadcastInDim ⟨2, ![1, b]⟩ ![1] h1 β) (ix2 p q))
      (broadcastInDim ⟨2, ![a, b]⟩ ![] h0 (constant (F := Ideal) ⟨0, ![]⟩ .f32 0x00000000#32) (ix2 p q)) = _
  rw [hz, dotGeneral_plain_apply wf none _ x W p q, broadcastInDim_1b_ab_apply _ h2 p q,
    broadcastInDim_b_1b_apply β h1 (0 : Fin 1) q]

end Cert.LibDense

end
-- ==== Proof.LibNodeUpdate.lean ====
/-
  A sum-aggregating graph network on the extended reals, for any extents: the node update of one layer, a classifier
  head, and three layers with a head as ONE function of the inputs.

  * `dense W β x`: entry `(p, q)` is `max (Σ_e x(p,e) · W(e,q) + β q) 0` — an affine map followed by a clamp at zero;
    `affine W β x` is the same without the clamp.
  * `mlp W1 β1 W2 β2 h g = dense W2 β2 (dense W1 β1 (h + g))`: a node's new features from its own features `h` and the
    sum `g` of its neighbours' features.
  * Each of them reads only the row of its argument that it writes (`dense_row`, `affine_row`, `mlp_row`), so a block of
    rows of the result is the same function of that block of rows of the arguments.
  * The vector unit's spelling (both factors rounded to a shorter format on the way into a product with a zero
    accumulator, a `[1, b]` bias row spread down the rows, a maximum with a splat zero) and the host's spelling (a
    `dot_general`, a `[b]` bias vector placed as a row and spread down the rows, a maximum with a broadcast zero) are
    these functions at the ideal instance, where rounding is the identity.
  * `layer A W1 β1 W2 β2 h` is the node update of the features `h` and their aggregate `A h`, and `net` is three layers
    followed by the head; the aggregation `A` (a gather of neighbour rows, then a scatter-add into the destination rows)
    is a parameter: nothing here looks inside it.
  Nothing is regrouped, so no finiteness of the entries is needed.
-/
import Idealize.ShloMosaic.Lib.ValueLayout
import Idealize.ShloMosaic.Lib.Pipeline.Value
import Idealize.ShloMosaic.PureOps.Ideal.Laws
import proofs.«109705_j44908178047327_2_alg».proof.Proof.LibRowMax
import proofs.«109705_j44908178047327_2_alg».proof.Proof.LibDense

noncomputable section

namespace Cert.LibNodeUpdate

open Idealize.ShloMosaic Idealize.ShloMosaic.ValueIdx Cert.LibRowMax

variable {a a' k l b : ℕ}

/-- An `a × b` matrix of extended reals. -/
abbrev Mat (a b : ℕ) : Type := (⟨2, ![a, b]⟩ : Shape).Idx → EReal

/-- An affine map of the rows followed by a clamp at zero. -/
def dense (W : Mat k b) (β : Fin b → EReal) (x : Mat a k) : Mat a b :=
  fun i => max (∑ e : Fin k, x (ix2 (i 0) e) * W (ix2 e (i 1)) + β (i 1)) (Ideal.ofBits .f32 0x00000000#32)

/-- An affine map of the rows. -/
def affine (W : Mat k b) (β : Fin b → EReal) (x : Mat a k) : Mat a b :=
  fun i => ∑ e : Fin k, x (ix2 (i 0) e) * W (ix2 e (i 1)) + β (i 1)

/-- The node update: two clamped affine maps of the node's features plus the neighbours' sum. -/
def mlp (W1 : Mat k l) (β1 : Fin l → EReal) (W2 : Mat l b) (β2 : Fin b → EReal) (h g : Mat a k) : Mat a b :=
  dense W2 β2 (dense W1 β1 (fun i => h i + g i))

theorem dense_apply (W : Mat k b) (β : Fin b → EReal) (x : Mat a k) (p : Fin a) (q : Fin b) :
    dense W β x (ix2 p q) = max (∑ e : Fin k, x (ix2 p e) * W (ix2 e q) + β q) (Ideal.ofBits .f32 0x00000000#32) := rfl

theorem affine_apply (W : Mat k b) (β : Fin b → EReal) (x : Mat a k) (p : Fin a) (q : Fin b) :
    affine W β x (ix2 p q) = ∑ e : Fin k, x (ix2 p e) * W (ix2 e q) + β q := rfl

/-! ## Each reads only the row it writes -/

theorem dense_row (W : Mat k b) (β : Fin b → EReal) (x : Mat a k) (X : Mat a' k) (p : Fin a) (P : Fin a') (q : Fin b)
    (hx : ∀ e : Fin k, x (ix2 p e) = X (ix2 P e)) : dense W β x (ix2 p q) = dense W β X (ix2 P q) := by
  rw [dense_apply, dense_apply]
  simp only [hx]

theorem affine_row (W : Mat k b) (β : Fin b → EReal) (x : Mat a k) (X : Mat a' k) (p : Fin a) (P : Fin a') (q : Fin b)
    (hx : ∀ e : Fin k, x (ix2 p e) = X (ix2 P e)) : affine W β x (ix2 p q) = affine W β X (ix2 P q) := by
  rw [affine_apply, affine_apply]
  simp only [hx]

theorem mlp_row (W1 : Mat k l) (β1 : Fin l → EReal) (W2 : Mat l b) (β2 : Fin b → EReal) (h g : Mat a k) (H G : Mat a' k)
    (p : Fin a) (P : Fin a') (q : Fin b)
    (hh : ∀ e : Fin k, h (ix2 p e) = H (ix2 P e)) (hg : ∀ e : Fin k, g (ix2 p e) = G (ix2 P e)) :
    mlp W1 β1 W2 β2 h g (ix2 p q) = mlp W1 β1 W2 β2 H G (ix2 P q) :=
  dense_row W2 β2 _ _ p P q fun e => dense_row W1 β1 _ _ p P e fun e' => by
    show h (ix2 p e') + g (ix2 p e') = H (ix2 P e') + G (ix2 P e')
    rw [hh e', hg e']

/-- The node update at two indices of two sets of arguments agrees when the weights and bias rows are equal, the column
    coordinates agree and the rows read agree. -/
theorem mlp_congr (W1 W1' : Mat k l) (β1 β1' : Fin l → EReal) (W2 W2' : Mat l b) (β2 β2' : Fin b → EReal)
    (h g : Mat a k) (H G : Mat a' k) (j : (⟨2, ![a, b]⟩ : Shape).Idx) (J : (⟨2, ![a', b]⟩ : Shape).Idx)
    (hW1 : W1 = W1') (hβ1 : β1 = β1') (hW2 : W2 = W2') (hβ2 : β2 = β2') (hj : (j 1).val = (J 1).val)
    (hh : ∀ e : Fin k, h (ix2 (j 0) e) = H (ix2 (J 0) e)) (hg : ∀ e : Fin k, g (ix2 (j 0) e) = G (ix2 (J 0) e)) :
    mlp W1 β1 W2 β2 h g j = mlp W1' β1' W2' β2' H G J := by
  subst hW1 hβ1 hW2 hβ2
  have e1 : j 1 = J 1 := Fin.ext hj
  rw [eq_ix2 j, eq_ix2 J, e1]
  exact mlp_row W1 β1 W2 β2 h g H G (j 0) (J 0) (J 1) hh hg

/-- The classifier head likewise. -/
theorem affine_congr (W W' : Mat k b) (β β' : Fin b → EReal) (x : Mat a k) (X : Mat a' k)
    (j : (⟨2, ![a, b]⟩ : Shape).Idx) (J : (⟨2, ![a', b]⟩ : Shape).Idx)
    (hW : W = W') (hβ : β = β') (hj : (j 1).val = (J 1).val)
    (hx : ∀ e : Fin k, x (ix2 (j 0) e) = X (ix2 (J 0) e)) :
    affine W β x j = affine W' β' X J := by
  subst hW hβ
  have e1 : j 1 = J 1 := Fin.ext hj
  rw [eq_ix2 j, eq_ix2 J, e1]
  exact affine_row W β x X (j 0) (J 0) (J 1) hx

/-! ## The vector unit's spelling -/

/-- A product of two rounded factors into a zero accumulator, plus a bias row spread down the rows, clamped at zero. -/
theorem vector_dense_eq (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ .f32) (W : FVec Ideal ⟨2, ![k, b]⟩ .f32) (β : FVec Ideal ⟨2, ![1, b]⟩ .f32)
    (hbc : (⟨2, ![1, b]⟩ : Shape).Broadcasts ⟨2, ![a, b]⟩) (lt : FTy.bf16.bits < FTy.f32.bits) :
    maximumf (addf (matmul D none (truncf .bf16 x lt) (truncf .bf16 W lt) (constant ⟨2, ![a, b]⟩ .f32 0x00000000#32))
        (broadcastTo ⟨2, ![a, b]⟩ β hbc)) (broadcast ⟨2, ![a, b]⟩ (Scalar.ofBits (F := Ideal) .f32 0x00000000#32))
      = dense W (fun e => β (ix2 (0 : Fin 1) e)) x := by
  subst hD
  funext j
  obtain ⟨p, q, rfl⟩ : ∃ (p : Fin a) (q : Fin b), j = ix2 p q := ⟨j 0, j 1, eq_ix2 j⟩
  show max (FloatOps.matmul (plainDims a k b wf) none (truncf .bf16 x lt) (truncf .bf16 W lt)
        (constant ⟨2, ![a, b]⟩ .f32 0x00000000#32) (ix2 p q)
      + broadcastTo ⟨2, ![a, b]⟩ β hbc (ix2 p q)) (Ideal.ofBits .f32 0x00000000#32) = _
  rw [matmul_plain_apply wf none (truncf .bf16 x lt) (truncf .bf16 W lt) p q, broadcastTo_1b_ab_apply β hbc p q]
  rfl

/-- The same without the clamp. -/
theorem vector_affine_eq (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ .f32) (W : FVec Ideal ⟨2, ![k, b]⟩ .f32) (β : FVec Ideal ⟨2, ![1, b]⟩ .f32)
    (hbc : (⟨2, ![1, b]⟩ : Shape).Broadcasts ⟨2, ![a, b]⟩) (lt : FTy.bf16.bits < FTy.f32.bits) :
    addf (matmul D none (truncf .bf16 x lt) (truncf .bf16 W lt) (constant ⟨2, ![a, b]⟩ .f32 0x00000000#32))
        (broadcastTo ⟨2, ![a, b]⟩ β hbc)
      = affine W (fun e => β (ix2 (0 : Fin 1) e)) x := by
  subst hD
  funext j
  obtain ⟨p, q, rfl⟩ : ∃ (p : Fin a) (q : Fin b), j = ix2 p q := ⟨j 0, j 1, eq_ix2 j⟩
  show FloatOps.matmul (plainDims a k b wf) none (truncf .bf16 x lt) (truncf .bf16 W lt)
        (constant ⟨2, ![a, b]⟩ .f32 0x00000000#32) (ix2 p q)
      + broadcastTo ⟨2, ![a, b]⟩ β hbc (ix2 p q) = _
  rw [matmul_plain_apply wf none (truncf .bf16 x lt) (truncf .bf16 W lt) p q, broadcastTo_1b_ab_apply β hbc p q]
  rfl

/-! ## The host's spelling -/

/-- A `dot_general` plus a bias vector placed as a row and spread down the rows, clamped at zero. -/
theorem host_dense_eq (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ .f32) (W : FVec Ideal ⟨2, ![k, b]⟩ .f32) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![]) :
    maximumf (addf (Host.dotGeneral D none x W)
        (broadcastInDim ⟨2, ![a, b]⟩ ![0, 1] h2 (broadcastInDim ⟨2, ![1, b]⟩ ![1] h1 β)))
      (broadcastInDim ⟨2, ![a, b]⟩ ![] h0 (constant (F := Ideal) ⟨0, ![]⟩ .f32 0x00000000#32))
    = dense W (fun e => β (ix1 e)) x := by
  funext j
  obtain ⟨p, q, rfl⟩ : ∃ (p : Fin a) (q : Fin b), j = ix2 p q := ⟨j 0, j 1, eq_ix2 j⟩
  exact Cert.LibDense.host_dense_apply D wf hD x W β h1 h2 h0 p q

/-- The same without the clamp. -/
theorem host_affine_eq (D : DotDims ⟨2, ![a, k]⟩ ⟨2, ![k, b]⟩ ⟨2, ![a, b]⟩)
    (wf : DotDims.WF ⟨2, ![a, k]⟩ ⟨2, ![k, b]⟩ ⟨2, ![a, b]⟩ [1] [0] [0] [1] [] []) (hD : D = plainDims a k b wf)
    (x : FVec Ideal ⟨2, ![a, k]⟩ .f32) (W : FVec Ideal ⟨2, ![k, b]⟩ .f32) (β : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) :
    addf (Host.dotGeneral D none x W)
        (broadcastInDim ⟨2, ![a, b]⟩ ![0, 1] h2 (broadcastInDim ⟨2, ![1, b]⟩ ![1] h1 β))
    = affine W (fun e => β (ix1 e)) x := by
  subst hD
  funext j
  obtain ⟨p, q, rfl⟩ : ∃ (p : Fin a) (q : Fin b), j = ix2 p q := ⟨j 0, j 1, eq_ix2 j⟩
  show FloatOps.dotGeneral (plainDims a k b wf) none _ x W (ix2 p q)
      + broadcastInDim ⟨2, ![a, b]⟩ ![0, 1] h2 (broadcastInDim ⟨2, ![1, b]⟩ ![1] h1 β) (ix2 p q) = _
  rw [dotGeneral_plain_apply wf none _ x W p q, broadcastInDim_1b_ab_apply _ h2 p q,
    broadcastInDim_b_1b_apply β h1 (0 : Fin 1) q]
  rfl

/-- A vector reshaped to a one-row matrix reads, in that row, the vector. -/
theorem row_of_reshape (v : (⟨1, ![b]⟩ : Shape).Idx → EReal) (hc : (⟨1, ![b]⟩ : Shape).ShapeCasts ⟨2, ![1, b]⟩) :
    (fun e : Fin b => shapeCast ⟨2, ![1, b]⟩ v hc (ix2 (0 : Fin 1) e)) = fun e => v (ix1 e) :=
  funext fun e => shapeCast_a_1a_apply v hc (0 : Fin 1) e

/-! ## Layers put together -/

variable {n d o : ℕ}

/-- One layer: the node update of the features and their aggregate. -/
def layer (A : Mat n d → Mat n d) (W1 : Mat d d) (β1 : Fin d → EReal) (W2 : Mat d d) (β2 : Fin d → EReal)
    (h : Mat n d) : Mat n d :=
  mlp W1 β1 W2 β2 h (A h)

/-- Three layers and the head. -/
def net (A : Mat n d → Mat n d)
    (W1a : Mat d d) (β1a : Fin d → EReal) (W2a : Mat d d) (β2a : Fin d → EReal)
    (W1b : Mat d d) (β1b : Fin d → EReal) (W2b : Mat d d) (β2b : Fin d → EReal)
    (W1c : Mat d d) (β1c : Fin d → EReal) (W2c : Mat d d) (β2c : Fin d → EReal)
    (Wc : Mat d o) (βc : Fin o → EReal) (x : Mat n d) : Mat n o :=
  affine Wc βc (layer A W1c β1c W2c β2c (layer A W1b β1b W2b β2b (layer A W1a β1a W2a β2a x)))

end Cert.LibNodeUpdate

end
-- ==== Proof.RefNet.lean ====
/-
  The reference's result is the network function of its arguments.

  The reference is read one operation at a time (the generated stages `val_main_v…`). Its aggregation is the same two
  operations in each layer — a gather of the rows at the (sign-normalised) source indices, then a scatter-add into zeros at
  the destination indices —, named `agg` here once. Each layer's two `dot_general` + bias + clamp groups are the clamped
  affine maps of `Cert.LibNodeUpdate`, and the last product plus bias is the head.
-/
import proofs.«109705_j44908178047327_2_alg».proof.Proof.Gen.ReferenceIdeal.Read
import proofs.«109705_j44908178047327_2_alg».proof.Proof.LibNodeUpdate

set_option maxRecDepth 16384

noncomputable section

namespace Cert.ReferenceIdeal.Net

open Idealize.ShloMosaic Idealize.ShloMosaic.ValueIdx Cert.LibNodeUpdate
open Cert.ReferenceIdeal Cert.ReferenceIdeal.Gen Cert.ReferenceIdeal.Read

/-- The aggregation: the neighbours' rows gathered and summed into their destination rows. -/
def agg (x2 : (⟨S2x600000, .i32⟩ : BufTy).Contents (Elt Ideal)) (h : FVec Ideal S50000x128 .f32) : FVec Ideal S50000x128 .f32 :=
  Host.scatterAdd (F := Ideal) scatter_S50000x128_S600000x1_S600000x128_1_0_0_1 (val_main_v11 (F := Ideal)) (val_main_v12 (F := Ideal) x2)
    (Host.gather gather_S50000x128_S600000x1_S600000x128_1_0_n_n_0_1_1128 h (val_main_v9 (F := Ideal) x2))

/-- One `dot_general` + bias vector + clamp group of the reference. -/
theorem dense_stage (x : FVec Ideal S50000x128 .f32) (W : FVec Ideal S128x128 .f32) (β : FVec Ideal S128 .f32) :
    maximumf (addf (Host.dotGeneral dot_S50000x128_S128x128_S50000x128_1_0_0_1_n_n none x W)
        (broadcastInDim S50000x128 ![0, 1] bcast_S1x128_S50000x128_0_1 (broadcastInDim S1x128 ![1] bcast_S128_S1x128_1 β)))
      (broadcastInDim S50000x128 ![] bcast_S_S50000x128 (constant (F := Ideal) S_ .f32 0x00000000#32))
    = dense (W : S128x128.Idx → EReal) (fun e => (β : S128.Idx → EReal) (ix1 e)) (x : S50000x128.Idx → EReal) :=
  host_dense_eq dot_S50000x128_S128x128_S50000x128_1_0_0_1_n_n dot_S50000x128_S128x128_S50000x128_1_0_0_1_n_n_wf rfl
    x W β bcast_S128_S1x128_1 bcast_S1x128_S50000x128_0_1 bcast_S_S50000x128

variable (x0 : (⟨S50000x128, .f32⟩ : BufTy).Contents (Elt Ideal)) (x2 : (⟨S2x600000, .i32⟩ : BufTy).Contents (Elt Ideal))
  (x3 : (⟨S3x128x128, .f32⟩ : BufTy).Contents (Elt Ideal)) (x4 : (⟨S3x128, .f32⟩ : BufTy).Contents (Elt Ideal))
  (x5 : (⟨S3x128x128, .f32⟩ : BufTy).Contents (Elt Ideal)) (x6 : (⟨S3x128, .f32⟩ : BufTy).Contents (Elt Ideal))
  (x7 : (⟨S128x40, .f32⟩ : BufTy).Contents (Elt Ideal)) (x8 : (⟨S40, .f32⟩ : BufTy).Contents (Elt Ideal))

/-- The first layer. -/
theorem v32_eq : val_main_v32 (F := Ideal) x0 x2 x3 x4 x5 x6
    = layer (agg x2) (val_main_v16 (F := Ideal) x3) (fun e => val_main_v19 (F := Ideal) x4 (ix1 e))
        (val_main_v25 (F := Ideal) x5) (fun e => val_main_v28 (F := Ideal) x6 (ix1 e)) x0 := by
  have h1 : val_main_v23 (F := Ideal) x0 x2 x3 x4
      = dense (val_main_v16 (F := Ideal) x3 : S128x128.Idx → EReal) (fun e => (val_main_v19 (F := Ideal) x4 : S128.Idx → EReal) (ix1 e))
          (val_main_v14 (F := Ideal) x0 x2 : S50000x128.Idx → EReal) :=
    dense_stage (val_main_v14 (F := Ideal) x0 x2) (val_main_v16 (F := Ideal) x3) (val_main_v19 (F := Ideal) x4)
  have h2 : val_main_v32 (F := Ideal) x0 x2 x3 x4 x5 x6
      = dense (val_main_v25 (F := Ideal) x5 : S128x128.Idx → EReal) (fun e => (val_main_v28 (F := Ideal) x6 : S128.Idx → EReal) (ix1 e))
          (val_main_v23 (F := Ideal) x0 x2 x3 x4 : S50000x128.Idx → EReal) :=
    dense_stage (val_main_v23 (F := Ideal) x0 x2 x3 x4) (val_main_v25 (F := Ideal) x5) (val_main_v28 (F := Ideal) x6)
  have h0 : (val_main_v14 (F := Ideal) x0 x2 : S50000x128.Idx → EReal) = fun i => x0 i + agg x2 x0 i := by
    unfold val_main_v14 val_main_v13 val_main_v10 agg
    rfl
  rw [h2, h1, h0]
  unfold layer mlp
  rfl

/-- The second layer. -/
theorem v61_eq : val_main_v61 (F := Ideal) x0 x2 x3 x4 x5 x6
    = layer (agg x2) (val_main_v45 (F := Ideal) x3) (fun e => val_main_v48 (F := Ideal) x4 (ix1 e))
        (val_main_v54 (F := Ideal) x5) (fun e => val_main_v57 (F := Ideal) x6 (ix1 e)) (val_main_v32 (F := Ideal) x0 x2 x3 x4 x5 x6) := by
  have h1 : val_main_v52 (F := Ideal) x0 x2 x3 x4 x5 x6
      = dense (val_main_v45 (F := Ideal) x3 : S128x128.Idx → EReal) (fun e => (val_main_v48 (F := Ideal) x4 : S128.Idx → EReal) (ix1 e))
          (val_main_v43 (F := Ideal) x0 x2 x3 x4 x5 x6 : S50000x128.Idx → EReal) :=
    dense_stage (val_main_v43 (F := Ideal) x0 x2 x3 x4 x5 x6) (val_main_v45 (F := Ideal) x3) (val_main_v48 (F := Ideal) x4)
  have h2 : val_main_v61 (F := Ideal) x0 x2 x3 x4 x5 x6
      = dense (val_main_v54 (F := Ideal) x5 : S128x128.Idx → EReal) (fun e => (val_main_v57 (F := Ideal) x6 : S128.Idx → EReal) (ix1 e))
          (val_main_v52 (F := Ideal) x0 x2 x3 x4 x5 x6 : S50000x128.Idx → EReal) :=
    dense_stage (val_main_v52 (F := Ideal) x0 x2 x3 x4 x5 x6) (val_main_v54 (F := Ideal) x5) (val_main_v57 (F := Ideal) x6)
  have h0 : (val_main_v43 (F := Ideal) x0 x2 x3 x4 x5 x6 : S50000x128.Idx → EReal)
      = fun i => val_main_v32 (F := Ideal) x0 x2 x3 x4 x5 x6 i + agg x2 (val_main_v32 (F := Ideal) x0 x2 x3 x4 x5 x6) i := by
    unfold val_main_v43 val_main_v42 val_main_v39 agg
    rfl
  rw [h2, h1, h0]
  unfold layer mlp
  rfl

/-- The third layer. -/
theorem v90_eq : val_main_v90 (F := Ideal) x0 x2 x3 x4 x5 x6
    = layer (agg x2) (val_main_v74 (F := Ideal) x3) (fun e => val_main_v77 (F := Ideal) x4 (ix1 e))
        (val_main_v83 (F := Ideal) x5) (fun e => val_main_v86 (F := Ideal) x6 (ix1 e)) (val_main_v61 (F := Ideal) x0 x2 x3 x4 x5 x6) := by
  have h1 : val_main_v81 (F := Ideal) x0 x2 x3 x4 x5 x6
      = dense (val_main_v74 (F := Ideal) x3 : S128x128.Idx → EReal) (fun e => (val_main_v77 (F := Ideal) x4 : S128.Idx → EReal) (ix1 e))
          (val_main_v72 (F := Ideal) x0 x2 x3 x4 x5 x6 : S50000x128.Idx → EReal) :=
    dense_stage (val_main_v72 (F := Ideal) x0 x2 x3 x4 x5 x6) (val_main_v74 (F := Ideal) x3) (val_main_v77 (F := Ideal) x4)
  have h2 : val_main_v90 (F := Ideal) x0 x2 x3 x4 x5 x6
      = dense (val_main_v83 (F := Ideal) x5 : S128x128.Idx → EReal) (fun e => (val_main_v86 (F := Ideal) x6 : S128.Idx → EReal) (ix1 e))
          (val_main_v81 (F := Ideal) x0 x2 x3 x4 x5 x6 : S50000x128.Idx → EReal) :=
    dense_stage (val_main_v81 (F := Ideal) x0 x2 x3 x4 x5 x6) (val_main_v83 (F := Ideal) x5) (val_main_v86 (F := Ideal) x6)
  have h0 : (val_main_v72 (F := Ideal) x0 x2 x3 x4 x5 x6 : S50000x128.Idx → EReal)
      = fun i => val_main_v61 (F := Ideal) x0 x2 x3 x4 x5 x6 i + agg x2 (val_main_v61 (F := Ideal) x0 x2 x3 x4 x5 x6) i := by
    unfold val_main_v72 val_main_v71 val_main_v68 agg
    rfl
  rw [h2, h1, h0]
  unfold layer mlp
  rfl

/-- The head. -/
theorem v94_eq : val_main_v94 (F := Ideal) x0 x2 x3 x4 x5 x6 x7 x8
    = affine (x7 : S128x40.Idx → EReal) (fun e => (x8 : S40.Idx → EReal) (ix1 e)) (val_main_v90 (F := Ideal) x0 x2 x3 x4 x5 x6 : S50000x128.Idx → EReal) :=
  host_affine_eq dot_S50000x128_S128x40_S50000x40_1_0_0_1_n_n dot_S50000x128_S128x40_S50000x40_1_0_0_1_n_n_wf rfl
    (val_main_v90 (F := Ideal) x0 x2 x3 x4 x5 x6) x7 x8 bcast_S40_S1x40_1 bcast_S1x40_S50000x40_0_1

/-- The reference's result: the network function of its arguments. -/
theorem result_eq : val_main_v94 (F := Ideal) x0 x2 x3 x4 x5 x6 x7 x8
    = net (agg x2)
        (val_main_v16 (F := Ideal) x3) (fun e => val_main_v19 (F := Ideal) x4 (ix1 e)) (val_main_v25 (F := Ideal) x5) (fun e => val_main_v28 (F := Ideal) x6 (ix1 e))
        (val_main_v45 (F := Ideal) x3) (fun e => val_main_v48 (F := Ideal) x4 (ix1 e)) (val_main_v54 (F := Ideal) x5) (fun e => val_main_v57 (F := Ideal) x6 (ix1 e))
        (val_main_v74 (F := Ideal) x3) (fun e => val_main_v77 (F := Ideal) x4 (ix1 e)) (val_main_v83 (F := Ideal) x5) (fun e => val_main_v86 (F := Ideal) x6 (ix1 e))
        (x7 : S128x40.Idx → EReal) (fun e => (x8 : S40.Idx → EReal) (ix1 e)) x0 := by
  rw [v94_eq, v90_eq, v61_eq, v32_eq]
  unfold net
  rfl

end Cert.ReferenceIdeal.Net

end
-- ==== Proof.Agg.lean ====
/-
  The aggregation in the kernel program's spelling is the reference's.

  Between two launches the kernel program rounds the node features to the shorter float format, gathers the rows at the
  sign-normalised source indices, widens them again and scatter-adds them into zeros at the destination indices. At the ideal
  instance rounding and widening are the identity, so the gathered rows are the rows of the features themselves, and
  the two programs' gather and scatter records have the same dimension numbers: the result is the reference's `agg` of
  the same index vectors and features. The scatter itself is never opened: the two sides are compared operand by operand.
-/
import proofs.«109705_j44908178047327_2_alg».proof.Proof.Gen.KernelIdeal
import proofs.«109705_j44908178047327_2_alg».proof.Proof.RefNet

set_option maxRecDepth 16384

noncomputable section

namespace Cert.KernelIdeal.Agg

open Idealize.ShloMosaic Idealize.ShloMosaic.ValueIdx
open Cert.KernelIdeal Cert.KernelIdeal.Gen

/-- The edge list's first row: the source indices. -/
def srcOf (x2 : IVec S2x600000 32) : IVec S600000 32 :=
  shapeCast _ (extractStridedSlice S1x600000 ![0, 0] x2 slices_S2x600000_S1x600000_0_0) shapeCasts_S1x600000_S600000

/-- The edge list's second row: the destination indices. -/
def dstOf (x2 : IVec S2x600000 32) : IVec S600000 32 :=
  shapeCast _ (extractStridedSlice S1x600000 ![1, 0] x2 slices_S2x600000_S1x600000_1_0) shapeCasts_S1x600000_S600000

theorem srcOf_eq (x2 : (⟨S2x600000, .i32⟩ : BufTy).Contents (Elt Ideal)) :
    srcOf x2 = Cert.ReferenceIdeal.Read.val_main_v1 (F := Ideal) x2 := rfl

theorem dstOf_eq (x2 : (⟨S2x600000, .i32⟩ : BufTy).Contents (Elt Ideal)) :
    dstOf x2 = Cert.ReferenceIdeal.Read.val_main_v3 (F := Ideal) x2 := rfl

/-- The source indices with the negative ones wrapped, as a column. -/
def srcCol (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- The kernel program's aggregation of the features `h` along the edges `src → dst`. -/
def aggW (src dst : IVec S600000 32) (h : FVec Ideal S50000x128 .f32) : FVec Ideal S50000x128 .f32 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dst)
    (extf .f32 (Host.gather gather_S50000x128_S600000x1_S600000x128_1_0_n_n_0_1_1128 (truncf .bf16 h bitsLt_bf16_f32) (srcCol src))
      bitsLt_bf16_f32)

/-- The rows gathered through the rounding are the rows of the features. -/
theorem gathered_eq (src : IVec S600000 32) (h : FVec Ideal S50000x128 .f32) :
    (extf .f32 (Host.gather gather_S50000x128_S600000x1_S600000x128_1_0_n_n_0_1_1128 (truncf .bf16 h bitsLt_bf16_f32) (srcCol src))
        bitsLt_bf16_f32 : FVec Ideal S600000x128 .f32)
      = Host.gather gather_S50000x128_S600000x1_S600000x128_1_0_n_n_0_1_1128 h (srcCol src) :=
  funext fun _ => rfl

/-- The two programs' gather records are one record. -/
theorem gather_rec : (gather_S50000x128_S600000x1_S600000x128_1_0_n_n_0_1_1128 : GatherDims S50000x128 S600000x1 S600000x128)
    = Cert.ReferenceIdeal.gather_S50000x128_S600000x1_S600000x128_1_0_n_n_0_1_1128 := rfl

/-- The two programs' scatter records are one record. -/
theorem scatter_rec : (scatter_S50000x128_S600000x1_S600000x128_1_0_0_1 : ScatterDims S50000x128 S600000x1 S600000x128)
    = Cert.ReferenceIdeal.scatter_S50000x128_S600000x1_S600000x128_1_0_0_1 := rfl

/-- The reference's index columns are the same functions of the edge list's two rows. -/
theorem srcCol_eq (x2 : (⟨S2x600000, .i32⟩ : BufTy).Contents (Elt Ideal)) :
    srcCol (Cert.ReferenceIdeal.Read.val_main_v1 (F := Ideal) x2) = Cert.ReferenceIdeal.Read.val_main_v9 (F := Ideal) x2 := by
  unfold srcCol Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_c Cert.ReferenceIdeal.Read.val_main_c_0
  rfl

/-- The kernel program's aggregation along the reference's index vectors is the reference's. -/
theorem aggW_eq (x2 : (⟨S2x600000, .i32⟩ : BufTy).Contents (Elt Ideal)) (h : FVec Ideal S50000x128 .f32) :
    aggW (Cert.ReferenceIdeal.Read.val_main_v1 (F := Ideal) x2) (Cert.ReferenceIdeal.Read.val_main_v3 (F := Ideal) x2) h
      = Cert.ReferenceIdeal.Net.agg x2 h := by
  unfold aggW Cert.ReferenceIdeal.Net.agg
  rw [gathered_eq, srcCol_eq, gather_rec, scatter_rec]
  unfold Cert.ReferenceIdeal.Read.val_main_v11 Cert.ReferenceIdeal.Read.val_main_cst Cert.ReferenceIdeal.Read.val_main_v12
  rfl

/-- The same, along the edge list's rows as the kernel program cuts them. -/
theorem aggW_rows (x2 : (⟨S2x600000, .i32⟩ : BufTy).Contents (Elt Ideal)) (h : FVec Ideal S50000x128 .f32) :
    aggW (srcOf x2) (dstOf x2) h = Cert.ReferenceIdeal.Net.agg x2 h := by
  rw [srcOf_eq, dstOf_eq, aggW_eq]

end Cert.KernelIdeal.Agg

end
-- ==== Proof.Body.lean ====
/-
  What each kernel body stores, as a function of the blocks it loads, at the ideal instance.

  The first two bodies store the node update `mlp W1 β1 W2 β2 h g` of a block `h` of node features and the same block `g`
  of neighbour sums; the third stores the classifier head `affine Wc βc` of that update. The bias rows arrive as
  `[1, b]` blocks and are read in their one row. Rounding to the shorter format on the way into each product is the
  identity at this instance, and a product into a zero accumulator is the plain sum over the contracted coordinate.
-/
import proofs.«109705_j44908178047327_2_alg».proof.Proof.Gen.KernelIdeal.Skeleton
import proofs.«109705_j44908178047327_2_alg».proof.Proof.LibNodeUpdate

noncomputable section

namespace Cert.KernelIdeal.Body

open Idealize.ShloMosaic Idealize.ShloMosaic.ValueIdx Cert.LibRowMax Cert.LibNodeUpdate
open Cert.KernelIdeal Cert.KernelIdeal.Gen

/-- The first body's stored block. -/
theorem pay0_eq (v0 v1 : Vec Ideal S2000x128 .f32) (v5 : Vec Ideal S128x128 .f32) (v9 : Vec Ideal S1x128 .f32)
    (v16 : Vec Ideal S128x128 .f32) (v20 : Vec Ideal S1x128 .f32) :
    k0_pay1 (F := Ideal) v0 v1 v5 v9 v16 v20
      = mlp v5 (fun e => v9 (ix2 (0 : Fin 1) e)) v16 (fun e => v20 (ix2 (0 : Fin 1) e)) v0 v1 := by
  unfold k0_pay1
  simp only [shapeCast_self]
  rw [vector_dense_eq dot_S2000x128_S128x128_S2000x128_1_0_0_1_n_n dot_S2000x128_S128x128_S2000x128_1_0_0_1_n_n_wf rfl
    (addf v0 v1) v5 v9 broadcasts_S1x128_S2000x128 bitsLt_bf16_f32]
  rw [vector_dense_eq dot_S2000x128_S128x128_S2000x128_1_0_0_1_n_n dot_S2000x128_S128x128_S2000x128_1_0_0_1_n_n_wf rfl
    _ v16 v20 broadcasts_S1x128_S2000x128 bitsLt_bf16_f32]
  rfl

/-- The second body's stored block. -/
theorem pay1_eq (v0 v2 : Vec Ideal S2000x128 .f32) (v6 : Vec Ideal S128x128 .f32) (v10 : Vec Ideal S1x128 .f32)
    (v17 : Vec Ideal S128x128 .f32) (v21 : Vec Ideal S1x128 .f32) :
    k1_pay1 (F := Ideal) v0 v2 v6 v10 v17 v21
      = mlp v6 (fun e => v10 (ix2 (0 : Fin 1) e)) v17 (fun e => v21 (ix2 (0 : Fin 1) e)) v0 v2 := by
  unfold k1_pay1
  simp only [shapeCast_self]
  rw [vector_dense_eq dot_S2000x128_S128x128_S2000x128_1_0_0_1_n_n dot_S2000x128_S128x128_S2000x128_1_0_0_1_n_n_wf rfl
    (addf v0 v2) v6 v10 broadcasts_S1x128_S2000x128 bitsLt_bf16_f32]
  rw [vector_dense_eq dot_S2000x128_S128x128_S2000x128_1_0_0_1_n_n dot_S2000x128_S128x128_S2000x128_1_0_0_1_n_n_wf rfl
    _ v17 v21 broadcasts_S1x128_S2000x128 bitsLt_bf16_f32]
  rfl

/-- The third body's stored block: the classifier head of the node update. -/
theorem pay2_eq (v0 v2 : Vec Ideal S2000x128 .f32) (v6 : Vec Ideal S128x128 .f32) (v10 : Vec Ideal S1x128 .f32)
    (v17 : Vec Ideal S128x128 .f32) (v21 : Vec Ideal S1x128 .f32) (v28 : Vec Ideal S128x40 .f32) (v31 : Vec Ideal S1x40 .f32) :
    k2_pay1 (F := Ideal) v0 v2 v6 v10 v17 v21 v28 v31
      = affine v28 (fun e => v31 (ix2 (0 : Fin 1) e))
          (mlp v6 (fun e => v10 (ix2 (0 : Fin 1) e)) v17 (fun e => v21 (ix2 (0 : Fin 1) e)) v0 v2) := by
  unfold k2_pay1
  simp only [shapeCast_self]
  rw [vector_dense_eq dot_S2000x128_S128x128_S2000x128_1_0_0_1_n_n dot_S2000x128_S128x128_S2000x128_1_0_0_1_n_n_wf rfl
    (addf v0 v2) v6 v10 broadcasts_S1x128_S2000x128 bitsLt_bf16_f32]
  rw [vector_dense_eq dot_S2000x128_S128x128_S2000x128_1_0_0_1_n_n dot_S2000x128_S128x128_S2000x128_1_0_0_1_n_n_wf rfl
    _ v17 v21 broadcasts_S1x128_S2000x128 bitsLt_bf16_f32]
  rw [vector_affine_eq dot_S2000x128_S128x40_S2000x40_1_0_0_1_n_n dot_S2000x128_S128x40_S2000x40_1_0_0_1_n_n_wf rfl
    _ v28 v31 broadcasts_S1x40_S2000x40 bitsLt_bf16_f32]
  rfl

end Cert.KernelIdeal.Body

end
-- ==== Proof.Blocks2.lean ====
/-
  The result array after the third launch: its 25 row blocks put together.

  Grid point `t` loads rows `[2000·t, 2000·t + 2000)` of the node features and of the neighbour sums and the whole of the
  layer's weights and bias rows and of the classifier's weights and bias row, and writes back the classifier head of the
  node update of those rows. Both read only the row they write, so what point `t` writes back is block `t` of the head of
  the update of the WHOLE arrays; the 25 blocks tile the 50000 rows.
-/
import proofs.«109705_j44908178047327_2_alg».proof.Proof.Gen.KernelIdeal.Frame
import proofs.«109705_j44908178047327_2_alg».proof.Proof.Body
import Idealize.ShloMosaic.Lib.Pipeline.Value

set_option maxRecDepth 16384

noncomputable section

namespace Cert.KernelIdeal.Blocks2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNodeUpdate

variable (V : (c : Dev nD) → (b : Ref sig .tc) → Buf (Elt Ideal) ((c : Thread nD τ).loc b))

theorem hz : (![0, 0] : Fin 2 → Nat) = fun _ => 0 := funext fun a => by fin_cases a <;> rfl

/-- The node update of the whole arrays as the launch finds them. -/
abbrev U (c : Dev nD) : S50000x128.Idx → EReal :=
  mlp (V c main_call0_v63 : S128x128.Idx → EReal) (fun e => (V c main_call0_v70 : S1x128.Idx → EReal) (ix2 (0 : Fin 1) e))
    (V c main_call0_v67 : S128x128.Idx → EReal) (fun e => (V c main_call0_v71 : S1x128.Idx → EReal) (ix2 (0 : Fin 1) e))
    (V c main_call0_v49 : S50000x128.Idx → EReal) (V c main_call0_v61 : S50000x128.Idx → EReal)

/-- The classifier head of that update. -/
abbrev G (c : Dev nD) : S50000x40.Idx → EReal :=
  affine (V c main_arg7 : S128x40.Idx → EReal) (fun e => (V c main_call0_v72 : S1x40.Idx → EReal) (ix2 (0 : Fin 1) e)) (U V c)

/-- The printed index maps over the grid: the two row-blocked inputs move with the output, the six whole-array
    inputs stay at the origin. -/
theorem idx_facts : ∀ t : Fin cfg2.N,
    win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (1 : Fin 2) = 0 :=
  (by decide +kernel : ∀ t : Fin grid2.N, _)

/-- Every block of rows is some point's. -/
theorem idx_onto : ∀ q0 : Fin 25, ∃ t : Fin cfg2.N, win2_8.index t = ![q0.val, 0] :=
  (by decide +kernel : ∀ q0 : Fin 25, ∃ t : Fin grid2.N, win2_8.index t = ![q0.val, 0])

set_option maxHeartbeats 4000000 in
/-- What point `t` writes back is block `t` of the head of the update of the whole arrays. -/
theorem flushed_eq (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz]
  simp only [View.ld_unit_zero (S := S2000x128) hz, View.ld_unit_zero (S := S128x128) hz, View.ld_unit_zero (S := S1x128) hz,
    View.ld_unit_zero (S := S128x40) hz, View.ld_unit_zero (S := S1x40) hz]
  rw [Body.pay2_eq]
  obtain ⟨e00, e01, e10, e11, e20, e21, e30, e31, e40, e41, e50, e51, e60, e61, e70, e71, e81⟩ := idx_facts t
  have hW1 : (iblk2 V c 2 t : S128x128.Idx → EReal) = (V c main_call0_v63 : S128x128.Idx → EReal) := by
    funext y
    show (V c main_call0_v63 : S128x128.Idx → EReal) (((cfg2.win 2).blk t).view.emb y) = (V c main_call0_v63 : S128x128.Idx → EReal) y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hW2 : (iblk2 V c 4 t : S128x128.Idx → EReal) = (V c main_call0_v67 : S128x128.Idx → EReal) := by
    funext y
    show (V c main_call0_v67 : S128x128.Idx → EReal) (((cfg2.win 4).blk t).view.emb y) = (V c main_call0_v67 : S128x128.Idx → EReal) y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hWc : (iblk2 V c 6 t : S128x40.Idx → EReal) = (V c main_arg7 : S128x40.Idx → EReal) := by
    funext y
    show (V c main_arg7 : S128x40.Idx → EReal) (((cfg2.win 6).blk t).view.emb y) = (V c main_arg7 : S128x40.Idx → EReal) y
    refine congrArg _ (funext fun a => Fin.ext ?_)
    match a with
    | ⟨0, _⟩ => show win2_6.index t (0 : Fin 2) * 128 + 1 * (y 0).val = (y 0).val; omega
    | ⟨1, _⟩ => show win2_6.index t (1 : Fin 2) * 40 + 1 * (y 1).val = (y 1).val; omega
  have hβ1 : (fun e : Fin 128 => (iblk2 V c 3 t : S1x128.Idx → EReal) (ix2 (0 : Fin 1) e))
      = fun e : Fin 128 => (V c main_call0_v70 : S1x128.Idx → EReal) (ix2 (0 : Fin 1) e) := by
    funext e
    show (V c main_call0_v70 : S1x128.Idx → EReal) (((cfg2.win 3).blk t).view.emb (ix2 (0 : Fin 1) e)) = (V c main_call0_v70 : S1x128.Idx → EReal) (ix2 (0 : Fin 1) e)
    refine congrArg _ (funext fun a => Fin.ext ?_)
    match a with
    | ⟨0, _⟩ => show win2_3.index t (0 : Fin 2) * 1 + 1 * 0 = 0; omega
    | ⟨1, _⟩ => show win2_3.index t (1 : Fin 2) * 128 + 1 * e.val = e.val; omega
  have hβ2 : (fun e : Fin 128 => (iblk2 V c 5 t : S1x128.Idx → EReal) (ix2 (0 : Fin 1) e))
      = fun e : Fin 128 => (V c main_call0_v71 : S1x128.Idx → EReal) (ix2 (0 : Fin 1) e) := by
    funext e
    show (V c main_call0_v71 : S1x128.Idx → EReal) (((cfg2.win 5).blk t).view.emb (ix2 (0 : Fin 1) e)) = (V c main_call0_v71 : S1x128.Idx → EReal) (ix2 (0 : Fin 1) e)
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * e.val = e.val; omega
  have hβc : (fun e : Fin 40 => (iblk2 V c 7 t : S1x40.Idx → EReal) (ix2 (0 : Fin 1) e))
      = fun e : Fin 40 => (V c main_call0_v72 : S1x40.Idx → EReal) (ix2 (0 : Fin 1) e) := by
    funext e
    show (V c main_call0_v72 : S1x40.Idx → EReal) (((cfg2.win 7).blk t).view.emb (ix2 (0 : Fin 1) e)) = (V c main_call0_v72 : S1x40.Idx → EReal) (ix2 (0 : Fin 1) e)
    refine congrArg _ (funext fun a => Fin.ext ?_)
    match a with
    | ⟨0, _⟩ => show win2_7.index t (0 : Fin 2) * 1 + 1 * 0 = 0; omega
    | ⟨1, _⟩ => show win2_7.index t (1 : Fin 2) * 40 + 1 * e.val = e.val; omega
  funext j
  have hj : (j 1).val = ((((cfg2.win 8).blk t).view.emb j : S50000x40.Idx) 1).val := by
    show (j 1).val = win2_8.index t (1 : Fin 2) * 40 + 1 * (j 1).val
    omega
  have hh : ∀ e : Fin 128, (iblk2 V c 0 t : S2000x128.Idx → EReal) (ix2 (j 0) e)
      = (V c main_call0_v49 : S50000x128.Idx → EReal) (ix2 ((((cfg2.win 8).blk t).view.emb j : S50000x40.Idx) 0) e) := by
    intro e
    show (V c main_call0_v49 : S50000x128.Idx → EReal) (((cfg2.win 0).blk t).view.emb (ix2 (j 0) e)) = _
    refine congrArg _ (funext fun a => Fin.ext ?_)
    match a with
    | ⟨0, _⟩ => show win2_0.index t (0 : Fin 2) * 2000 + 1 * (j 0).val = win2_8.index t (0 : Fin 2) * 2000 + 1 * (j 0).val; omega
    | ⟨1, _⟩ => show win2_0.index t (1 : Fin 2) * 128 + 1 * e.val = e.val; omega
  have hg : ∀ e : Fin 128, (iblk2 V c 1 t : S2000x128.Idx → EReal) (ix2 (j 0) e)
      = (V c main_call0_v61 : S50000x128.Idx → EReal) (ix2 ((((cfg2.win 8).blk t).view.emb j : S50000x40.Idx) 0) e) := by
    intro e
    show (V c main_call0_v61 : S50000x128.Idx → EReal) (((cfg2.win 1).blk t).view.emb (ix2 (j 0) e)) = _
    refine congrArg _ (funext fun a => Fin.ext ?_)
    match a with
    | ⟨0, _⟩ => show win2_1.index t (0 : Fin 2) * 2000 + 1 * (j 0).val = win2_8.index t (0 : Fin 2) * 2000 + 1 * (j 0).val; omega
    | ⟨1, _⟩ => show win2_1.index t (1 : Fin 2) * 128 + 1 * e.val = e.val; omega
  have hx : ∀ e : Fin 128,
      mlp (iblk2 V c 2 t : S128x128.Idx → EReal) (fun e : Fin 128 => (iblk2 V c 3 t : S1x128.Idx → EReal) (ix2 (0 : Fin 1) e))
        (iblk2 V c 4 t : S128x128.Idx → EReal) (fun e : Fin 128 => (iblk2 V c 5 t : S1x128.Idx → EReal) (ix2 (0 : Fin 1) e))
        (iblk2 V c 0 t : S2000x128.Idx → EReal) (iblk2 V c 1 t : S2000x128.Idx → EReal) (ix2 (j 0) e)
      = U V c (ix2 ((((cfg2.win 8).blk t).view.emb j : S50000x40.Idx) 0) e) := fun e =>
    mlp_congr (iblk2 V c 2 t : S128x128.Idx → EReal) (V c main_call0_v63 : S128x128.Idx → EReal)
      (fun e : Fin 128 => (iblk2 V c 3 t : S1x128.Idx → EReal) (ix2 (0 : Fin 1) e))
      (fun e : Fin 128 => (V c main_call0_v70 : S1x128.Idx → EReal) (ix2 (0 : Fin 1) e))
      (iblk2 V c 4 t : S128x128.Idx → EReal) (V c main_call0_v67 : S128x128.Idx → EReal)
      (fun e : Fin 128 => (iblk2 V c 5 t : S1x128.Idx → EReal) (ix2 (0 : Fin 1) e))
      (fun e : Fin 128 => (V c main_call0_v71 : S1x128.Idx → EReal) (ix2 (0 : Fin 1) e))
      (iblk2 V c 0 t : S2000x128.Idx → EReal) (iblk2 V c 1 t : S2000x128.Idx → EReal)
      (V c main_call0_v49 : S50000x128.Idx → EReal) (V c main_call0_v61 : S50000x128.Idx → EReal)
      (ix2 (j 0) e) (ix2 ((((cfg2.win 8).blk t).view.emb j : S50000x40.Idx) 0) e) hW1 hβ1 hW2 hβ2 rfl hh hg
  exact affine_congr (iblk2 V c 6 t : S128x40.Idx → EReal) (V c main_arg7 : S128x40.Idx → EReal)
    (fun e : Fin 40 => (iblk2 V c 7 t : S1x40.Idx → EReal) (ix2 (0 : Fin 1) e))
    (fun e : Fin 40 => (V c main_call0_v72 : S1x40.Idx → EReal) (ix2 (0 : Fin 1) e))
    (mlp (iblk2 V c 2 t : S128x128.Idx → EReal) (fun e : Fin 128 => (iblk2 V c 3 t : S1x128.Idx → EReal) (ix2 (0 : Fin 1) e))
        (iblk2 V c 4 t : S128x128.Idx → EReal) (fun e : Fin 128 => (iblk2 V c 5 t : S1x128.Idx → EReal) (ix2 (0 : Fin 1) e))
        (iblk2 V c 0 t : S2000x128.Idx → EReal) (iblk2 V c 1 t : S2000x128.Idx → EReal))
    (U V c) (j : S2000x40.Idx) ((((cfg2.win 8).blk t).view.emb j : S50000x40.Idx)) hWc hβc hj hx

/-- An index of the array is in point `t`'s block iff each coordinate is in the block's range on its axis. -/
theorem mem_blk (t : Fin cfg2.N) (i : S50000x40.Idx) :
    i ∈ ((cfg2.win 8).blk t).view.set ↔ ∀ a : Fin 2, win2_8.index t a * S2000x40.size a ≤ (i a).val ∧ (i a).val < win2_8.index t a * S2000x40.size a + S2000x40.size a := by
  show i ∈ ((View.whole main_v0).slice (win2_8.rect t)).set ↔ _
  rw [View.set_slice_whole, Rect.mem_set_unit]
  exact Iff.rfl

/-- Row `r` is in the block of the point whose block index is `r / 2000`. -/
theorem cover (i : S50000x40.Idx) :
    ∃ t : Fin cfg2.N, (cfg2.win 8).flush t = true ∧ i ∈ ((cfg2.win 8).blk t).view.set := by
  have hi0 : (i 0).val < 50000 := (i 0).isLt
  have hi1 : (i 1).val < 40 := (i 1).isLt
  obtain ⟨t, ht⟩ := idx_onto ⟨(i 0).val / 2000, by omega⟩
  have q0 : win2_8.index t (0 : Fin 2) = (i 0).val / 2000 := congrFun ht 0
  have q1 : win2_8.index t (1 : Fin 2) = 0 := congrFun ht 1
  refine ⟨t, flush2_8 t, ?_⟩
  rw [mem_blk]
  intro a
  match a with
  | ⟨0, _⟩ => show win2_8.index t (0 : Fin 2) * 2000 ≤ (i 0).val ∧ (i 0).val < win2_8.index t (0 : Fin 2) * 2000 + 2000; omega
  | ⟨1, _⟩ => show win2_8.index t (1 : Fin 2) * 40 ≤ (i 1).val ∧ (i 1).val < win2_8.index t (1 : Fin 2) * 40 + 40; omega

/-- The result array after the launch. -/
theorem final (c : Dev nD) : (dat2 V c).arrAt 8 cfg2.N = G V c :=
  (dat2 V c).arrAt_eq_of_cover 8 (G V c) (fun t _ => flushed_eq V c t) cover

end Cert.KernelIdeal.Blocks2

end
-- ==== Proof.Blocks1.lean ====
/-
  The node-feature array after launch 1: its 25 row blocks put together.

  Grid point `t` loads rows `[2000·t, 2000·t + 2000)` of the node features and of the neighbour sums, and the whole of the
  two weight matrices and the two bias rows, and writes back the node update of those rows. The update of a row reads only
  that row, so what point `t` writes back is block `t` of the update of the WHOLE arrays; the 25 blocks tile the
  50000 rows, so the array ends holding the update of the whole arrays as the launch finds them.
-/
import proofs.«109705_j44908178047327_2_alg».proof.Proof.Gen.KernelIdeal.Frame
import proofs.«109705_j44908178047327_2_alg».proof.Proof.Body
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNodeUpdate

variable (V : (c : Dev nD) → (b : Ref sig .tc) → Buf (Elt Ideal) ((c : Thread nD τ).loc b))

theorem hz : (![0, 0] : Fin 2 → Nat) = fun _ => 0 := funext fun a => by fin_cases a <;> rfl

/-- The node update of the whole arrays as the launch finds them. -/
abbrev G (c : Dev nD) : S50000x128.Idx → EReal :=
  mlp (V c main_call0_v40 : S128x128.Idx → EReal) (fun e => (V c main_call0_v47 : S1x128.Idx → EReal) (ix2 (0 : Fin 1) e))
    (V c main_call0_v44 : S128x128.Idx → EReal) (fun e => (V c main_call0_v48 : S1x128.Idx → EReal) (ix2 (0 : Fin 1) e))
    (V c main_call0_v26 : S50000x128.Idx → EReal) (V c main_call0_v38 : S50000x128.Idx → EReal)

/-- The printed index maps over the grid: the two row-blocked inputs move with the output, the four whole-array
    inputs stay at the origin. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 :=
  (by decide +kernel : ∀ t : Fin grid1.N, _)

/-- Every block of rows is some point's. -/
theorem idx_onto : ∀ q0 : Fin 25, ∃ t : Fin cfg1.N, win1_6.index t = ![q0.val, 0] :=
  (by decide +kernel : ∀ q0 : Fin 25, ∃ t : Fin grid1.N, win1_6.index t = ![q0.val, 0])

/-- What point `t` writes back is block `t` of the update of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  rw [Body.pay1_eq]
  obtain ⟨e00, e01, e10, e11, e20, e21, e30, e31, e40, e41, e50, e51, e61⟩ := idx_facts t
  have hW1 : (iblk1 V c 2 t : S128x128.Idx → EReal) = (V c main_call0_v40 : S128x128.Idx → EReal) := by
    funext y
    show (V c main_call0_v40 : S128x128.Idx → EReal) (((cfg1.win 2).blk t).view.emb y) = (V c main_call0_v40 : S128x128.Idx → EReal) y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hW2 : (iblk1 V c 4 t : S128x128.Idx → EReal) = (V c main_call0_v44 : S128x128.Idx → EReal) := by
    funext y
    show (V c main_call0_v44 : S128x128.Idx → EReal) (((cfg1.win 4).blk t).view.emb y) = (V c main_call0_v44 : S128x128.Idx → EReal) y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hβ1 : (fun e : Fin 128 => (iblk1 V c 3 t : S1x128.Idx → EReal) (ix2 (0 : Fin 1) e))
      = fun e : Fin 128 => (V c main_call0_v47 : S1x128.Idx → EReal) (ix2 (0 : Fin 1) e) := by
    funext e
    show (V c main_call0_v47 : S1x128.Idx → EReal) (((cfg1.win 3).blk t).view.emb (ix2 (0 : Fin 1) e)) = (V c main_call0_v47 : S1x128.Idx → EReal) (ix2 (0 : Fin 1) e)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * e.val = e.val; omega
  have hβ2 : (fun e : Fin 128 => (iblk1 V c 5 t : S1x128.Idx → EReal) (ix2 (0 : Fin 1) e))
      = fun e : Fin 128 => (V c main_call0_v48 : S1x128.Idx → EReal) (ix2 (0 : Fin 1) e) := by
    funext e
    show (V c main_call0_v48 : S1x128.Idx → EReal) (((cfg1.win 5).blk t).view.emb (ix2 (0 : Fin 1) e)) = (V c main_call0_v48 : S1x128.Idx → EReal) (ix2 (0 : Fin 1) e)
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * e.val = e.val; omega
  funext j
  have hj : (j 1).val = ((((cfg1.win 6).blk t).view.emb j : S50000x128.Idx) 1).val := by
    show (j 1).val = win1_6.index t (1 : Fin 2) * 128 + 1 * (j 1).val
    omega
  have hh : ∀ e : Fin 128, (iblk1 V c 0 t : S2000x128.Idx → EReal) (ix2 (j 0) e)
      = (V c main_call0_v26 : S50000x128.Idx → EReal) (ix2 ((((cfg1.win 6).blk t).view.emb j : S50000x128.Idx) 0) e) := by
    intro e
    show (V c main_call0_v26 : S50000x128.Idx → EReal) (((cfg1.win 0).blk t).view.emb (ix2 (j 0) e)) = _
    refine congrArg _ (funext fun a => Fin.ext ?_)
    match a with
    | ⟨0, _⟩ => show win1_0.index t (0 : Fin 2) * 2000 + 1 * (j 0).val = win1_6.index t (0 : Fin 2) * 2000 + 1 * (j 0).val; omega
    | ⟨1, _⟩ => show win1_0.index t (1 : Fin 2) * 128 + 1 * e.val = e.val; omega
  have hg : ∀ e : Fin 128, (iblk1 V c 1 t : S2000x128.Idx → EReal) (ix2 (j 0) e)
      = (V c main_call0_v38 : S50000x128.Idx → EReal) (ix2 ((((cfg1.win 6).blk t).view.emb j : S50000x128.Idx) 0) e) := by
    intro e
    show (V c main_call0_v38 : S50000x128.Idx → EReal) (((cfg1.win 1).blk t).view.emb (ix2 (j 0) e)) = _
    refine congrArg _ (funext fun a => Fin.ext ?_)
    match a with
    | ⟨0, _⟩ => show win1_1.index t (0 : Fin 2) * 2000 + 1 * (j 0).val = win1_6.index t (0 : Fin 2) * 2000 + 1 * (j 0).val; omega
    | ⟨1, _⟩ => show win1_1.index t (1 : Fin 2) * 128 + 1 * e.val = e.val; omega
  exact mlp_congr (iblk1 V c 2 t : S128x128.Idx → EReal) (V c main_call0_v40 : S128x128.Idx → EReal)
    (fun e : Fin 128 => (iblk1 V c 3 t : S1x128.Idx → EReal) (ix2 (0 : Fin 1) e))
    (fun e : Fin 128 => (V c main_call0_v47 : S1x128.Idx → EReal) (ix2 (0 : Fin 1) e))
    (iblk1 V c 4 t : S128x128.Idx → EReal) (V c main_call0_v44 : S128x128.Idx → EReal)
    (fun e : Fin 128 => (iblk1 V c 5 t : S1x128.Idx → EReal) (ix2 (0 : Fin 1) e))
    (fun e : Fin 128 => (V c main_call0_v48 : S1x128.Idx → EReal) (ix2 (0 : Fin 1) e))
    (iblk1 V c 0 t : S2000x128.Idx → EReal) (iblk1 V c 1 t : S2000x128.Idx → EReal)
    (V c main_call0_v26 : S50000x128.Idx → EReal) (V c main_call0_v38 : S50000x128.Idx → EReal)
    (j : S2000x128.Idx) ((((cfg1.win 6).blk t).view.emb j : S50000x128.Idx)) hW1 hβ1 hW2 hβ2 hj hh hg

/-- An index of the array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_call0_v49).slice (win1_6.rect t)).set ↔ _
  rw [View.set_slice_whole, Rect.mem_set_unit]
  exact Iff.rfl

/-- Row `r` is in the block of the point whose block index is `r / 2000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The array after the launch: the node update of the whole arrays as the launch finds them. -/
theorem final (c : Dev nD) : (dat1 V c).arrAt 6 cfg1.N = G V c :=
  (dat1 V c).arrAt_eq_of_cover 6 (G V c) (fun t _ => flushed_eq V c t) cover

end Cert.KernelIdeal.Blocks1

end
-- ==== Proof.Blocks0.lean ====
/-
  The node-feature array after launch 0: its 25 row blocks put together.

  Grid point `t` loads rows `[2000·t, 2000·t + 2000)` of the node features and of the neighbour sums, and the whole of the
  two weight matrices and the two bias rows, and writes back the node update of those rows. The update of a row reads only
  that row, so what point `t` writes back is block `t` of the update of the WHOLE arrays; the 25 blocks tile the
  50000 rows, so the array ends holding the update of the whole arrays as the launch finds them.
-/
import proofs.«109705_j44908178047327_2_alg».proof.Proof.Gen.KernelIdeal.Frame
import proofs.«109705_j44908178047327_2_alg».proof.Proof.Body
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LibNodeUpdate

variable (V : (c : Dev nD) → (b : Ref sig .tc) → Buf (Elt Ideal) ((c : Thread nD τ).loc b))

theorem hz : (![0, 0] : Fin 2 → Nat) = fun _ => 0 := funext fun a => by fin_cases a <;> rfl

/-- The node update of the whole arrays as the launch finds them. -/
abbrev G (c : Dev nD) : S50000x128.Idx → EReal :=
  mlp (V c main_call0_v17 : S128x128.Idx → EReal) (fun e => (V c main_call0_v24 : S1x128.Idx → EReal) (ix2 (0 : Fin 1) e))
    (V c main_call0_v21 : S128x128.Idx → EReal) (fun e => (V c main_call0_v25 : S1x128.Idx → EReal) (ix2 (0 : Fin 1) e))
    (V c main_arg0 : S50000x128.Idx → EReal) (V c main_call0_v15 : S50000x128.Idx → EReal)

/-- The printed index maps over the grid: the two row-blocked inputs move with the output, the four whole-array
    inputs stay at the origin. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- Every block of rows is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- What point `t` writes back is block `t` of the update of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  rw [Body.pay0_eq]
  obtain ⟨e00, e01, e10, e11, e20, e21, e30, e31, e40, e41, e50, e51, e61⟩ := idx_facts t
  have hW1 : (iblk0 V c 2 t : S128x128.Idx → EReal) = (V c main_call0_v17 : S128x128.Idx → EReal) := by
    funext y
    show (V c main_call0_v17 : S128x128.Idx → EReal) (((cfg0.win 2).blk t).view.emb y) = (V c main_call0_v17 : S128x128.Idx → EReal) y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hW2 : (iblk0 V c 4 t : S128x128.Idx → EReal) = (V c main_call0_v21 : S128x128.Idx → EReal) := by
    funext y
    show (V c main_call0_v21 : S128x128.Idx → EReal) (((cfg0.win 4).blk t).view.emb y) = (V c main_call0_v21 : S128x128.Idx → EReal) y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hβ1 : (fun e : Fin 128 => (iblk0 V c 3 t : S1x128.Idx → EReal) (ix2 (0 : Fin 1) e))
      = fun e : Fin 128 => (V c main_call0_v24 : S1x128.Idx → EReal) (ix2 (0 : Fin 1) e) := by
    funext e
    show (V c main_call0_v24 : S1x128.Idx → EReal) (((cfg0.win 3).blk t).view.emb (ix2 (0 : Fin 1) e)) = (V c main_call0_v24 : S1x128.Idx → EReal) (ix2 (0 : Fin 1) e)
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * e.val = e.val; omega
  have hβ2 : (fun e : Fin 128 => (iblk0 V c 5 t : S1x128.Idx → EReal) (ix2 (0 : Fin 1) e))
      = fun e : Fin 128 => (V c main_call0_v25 : S1x128.Idx → EReal) (ix2 (0 : Fin 1) e) := by
    funext e
    show (V c main_call0_v25 : S1x128.Idx → EReal) (((cfg0.win 5).blk t).view.emb (ix2 (0 : Fin 1) e)) = (V c main_call0_v25 : S1x128.Idx → EReal) (ix2 (0 : Fin 1) e)
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * e.val = e.val; omega
  funext j
  have hj : (j 1).val = ((((cfg0.win 6).blk t).view.emb j : S50000x128.Idx) 1).val := by
    show (j 1).val = win0_6.index t (1 : Fin 2) * 128 + 1 * (j 1).val
    omega
  have hh : ∀ e : Fin 128, (iblk0 V c 0 t : S2000x128.Idx → EReal) (ix2 (j 0) e)
      = (V c main_arg0 : S50000x128.Idx → EReal) (ix2 ((((cfg0.win 6).blk t).view.emb j : S50000x128.Idx) 0) e) := by
    intro e
    show (V c main_arg0 : S50000x128.Idx → EReal) (((cfg0.win 0).blk t).view.emb (ix2 (j 0) e)) = _
    refine congrArg _ (funext fun a => Fin.ext ?_)
    match a with
    | ⟨0, _⟩ => show win0_0.index t (0 : Fin 2) * 2000 + 1 * (j 0).val = win0_6.index t (0 : Fin 2) * 2000 + 1 * (j 0).val; omega
    | ⟨1, _⟩ => show win0_0.index t (1 : Fin 2) * 128 + 1 * e.val = e.val; omega
  have hg : ∀ e : Fin 128, (iblk0 V c 1 t : S2000x128.Idx → EReal) (ix2 (j 0) e)
      = (V c main_call0_v15 : S50000x128.Idx → EReal) (ix2 ((((cfg0.win 6).blk t).view.emb j : S50000x128.Idx) 0) e) := by
    intro e
    show (V c main_call0_v15 : S50000x128.Idx → EReal) (((cfg0.win 1).blk t).view.emb (ix2 (j 0) e)) = _
    refine congrArg _ (funext fun a => Fin.ext ?_)
    match a with
    | ⟨0, _⟩ => show win0_1.index t (0 : Fin 2) * 2000 + 1 * (j 0).val = win0_6.index t (0 : Fin 2) * 2000 + 1 * (j 0).val; omega
    | ⟨1, _⟩ => show win0_1.index t (1 : Fin 2) * 128 + 1 * e.val = e.val; omega
  exact mlp_congr (iblk0 V c 2 t : S128x128.Idx → EReal) (V c main_call0_v17 : S128x128.Idx → EReal)
    (fun e : Fin 128 => (iblk0 V c 3 t : S1x128.Idx → EReal) (ix2 (0 : Fin 1) e))
    (fun e : Fin 128 => (V c main_call0_v24 : S1x128.Idx → EReal) (ix2 (0 : Fin 1) e))
    (iblk0 V c 4 t : S128x128.Idx → EReal) (V c main_call0_v21 : S128x128.Idx → EReal)
    (fun e : Fin 128 => (iblk0 V c 5 t : S1x128.Idx → EReal) (ix2 (0 : Fin 1) e))
    (fun e : Fin 128 => (V c main_call0_v25 : S1x128.Idx → EReal) (ix2 (0 : Fin 1) e))
    (iblk0 V c 0 t : S2000x128.Idx → EReal) (iblk0 V c 1 t : S2000x128.Idx → EReal)
    (V c main_arg0 : S50000x128.Idx → EReal) (V c main_call0_v15 : S50000x128.Idx → EReal)
    (j : S2000x128.Idx) ((((cfg0.win 6).blk t).view.emb j : S50000x128.Idx)) hW1 hβ1 hW2 hβ2 hj hh hg

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_call0_v26).slice (win0_6.rect t)).set ↔ _
  rw [View.set_slice_whole, Rect.mem_set_unit]
  exact Iff.rfl

/-- Row `r` is in the block of the point whose block index is `r / 2000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The array after the launch: the node update of the whole arrays as the launch finds them. -/
theorem final (c : Dev nD) : (dat0 V c).arrAt 6 cfg0.N = G V c :=
  (dat0 V c).arrAt_eq_of_cover 6 (G V c) (fun t _ => flushed_eq V c t) cover

end Cert.KernelIdeal.Blocks0

end
-- ==== Proof.Entry0.lean ====
/-
  The first launch: what it finds and what it leaves.

  The stretch of host operations before the first launch cuts the source and destination index vectors out of the edge
  list, gathers and sums the neighbours' rows of the input features, and cuts the first layer's weights and bias vectors
  out of the stacked parameters. Read back through that stretch, the launch's six input arrays are the reference's own
  stages of the launch memory (the aggregation through a rounding to the shorter format and back, the identity at the
  ideal instance); so the array the launch leaves is the first layer of the input features. The buffers later stretches
  read — the two index vectors and the arguments — are recorded as they stand after the launch, which does not touch them.
-/
import proofs.«109705_j44908178047327_2_alg».proof.Proof.Gen.KernelIdeal.Frame
import Idealize.ShloMosaic.Lib.StableHlo.Run
import proofs.«109705_j44908178047327_2_alg».proof.Proof.RefNet
import proofs.«109705_j44908178047327_2_alg».proof.Proof.Agg
import proofs.«109705_j44908178047327_2_alg».proof.Proof.Blocks0

set_option maxRecDepth 16384

noncomputable section

namespace Cert.KernelIdeal.Entry0

open Idealize.ShloMosaic Idealize.ShloMosaic.TcCoe Idealize.SL.Sem Idealize.ShloMosaic.StableHlo Idealize.ShloMosaic.ValueIdx
open Cert.KernelIdeal Cert.KernelIdeal.Gen Cert.LibNodeUpdate

variable (m : (ℓ : Loc nD τ sig) → Buf (Elt Ideal) ℓ) (ρ : Dev nD → PrngReg)

/-! ## What the launch finds -/

set_option maxHeartbeats 8000000 in
theorem feat (c : Dev nD) : (V1 m ρ c main_arg0 : S50000x128.Idx → EReal) = (m ((c : Thread nD τ).loc main_arg0)) := by
  dsimp only [V1, W1, hostOps0]
  after_results <;> rfl

set_option maxHeartbeats 8000000 in
theorem aggr (c : Dev nD) : (V1 m ρ c main_call0_v15 : S50000x128.Idx → EReal)
    = Cert.ReferenceIdeal.Net.agg (m ((c : Thread nD τ).loc main_arg2)) (m ((c : Thread nD τ).loc main_arg0)) := by
  have e : (V1 m ρ c main_call0_v15 : S50000x128.Idx → EReal)
      = Agg.aggW (Agg.srcOf (m ((c : Thread nD τ).loc main_arg2))) (Agg.dstOf (m ((c : Thread nD τ).loc main_arg2))) (m ((c : Thread nD τ).loc main_arg0)) := by
    dsimp only [V1, W1, hostOps0]
    after_results <;> rfl
  rw [e, Agg.aggW_rows]

set_option maxHeartbeats 8000000 in
theorem w1 (c : Dev nD) : (V1 m ρ c main_call0_v17 : S128x128.Idx → EReal)
    = Cert.ReferenceIdeal.Read.val_main_v16 (F := Ideal) (m ((c : Thread nD τ).loc main_arg3)) := by
  dsimp only [V1, W1, hostOps0]
  after_results <;> rfl

set_option maxHeartbeats 8000000 in
theorem b1 (c : Dev nD) : (V1 m ρ c main_call0_v24 : S1x128.Idx → EReal)
    = shapeCast S1x128 (Cert.ReferenceIdeal.Read.val_main_v19 (F := Ideal) (m ((c : Thread nD τ).loc main_arg4))) shapeCasts_S128_S1x128 := by
  dsimp only [V1, W1, hostOps0]
  after_results <;> rfl

set_option maxHeartbeats 8000000 in
theorem w2 (c : Dev nD) : (V1 m ρ c main_call0_v21 : S128x128.Idx → EReal)
    = Cert.ReferenceIdeal.Read.val_main_v25 (F := Ideal) (m ((c : Thread nD τ).loc main_arg5)) := by
  dsimp only [V1, W1, hostOps0]
  after_results <;> rfl

set_option maxHeartbeats 8000000 in
theorem b2 (c : Dev nD) : (V1 m ρ c main_call0_v25 : S1x128.Idx → EReal)
    = shapeCast S1x128 (Cert.ReferenceIdeal.Read.val_main_v28 (F := Ideal) (m ((c : Thread nD τ).loc main_arg6))) shapeCasts_S128_S1x128 := by
  dsimp only [V1, W1, hostOps0]
  after_results <;> rfl

/-! ## What the launch leaves -/

/-- The first layer of the input features. -/
abbrev H (c : Dev nD) : S50000x128.Idx → EReal :=
  layer (Cert.ReferenceIdeal.Net.agg (m ((c : Thread nD τ).loc main_arg2)))
    (Cert.ReferenceIdeal.Read.val_main_v16 (F := Ideal) (m ((c : Thread nD τ).loc main_arg3))) (fun e => Cert.ReferenceIdeal.Read.val_main_v19 (F := Ideal) (m ((c : Thread nD τ).loc main_arg4)) (ix1 e))
    (Cert.ReferenceIdeal.Read.val_main_v25 (F := Ideal) (m ((c : Thread nD τ).loc main_arg5))) (fun e => Cert.ReferenceIdeal.Read.val_main_v28 (F := Ideal) (m ((c : Thread nD τ).loc main_arg6)) (ix1 e))
    (m ((c : Thread nD τ).loc main_arg0))

theorem out (c : Dev nD) : (W2 m ρ c (Proc.devRef .tc main_call0_v26) : S50000x128.Idx → EReal) = H m c := by
  refine (W2_arr m ρ c 6).trans ?_
  rw [Blocks0.final (V1 m ρ) c]
  unfold Blocks0.G
  rw [feat, aggr, w1, b1, w2, b2, row_of_reshape, row_of_reshape]
  rfl

/-! ## The buffers later stretches read, after the launch -/

set_option maxHeartbeats 8000000 in
theorem src (c : Dev nD) : (W2 m ρ c (Proc.devRef .tc main_call0_v1) : S600000.Idx → BitVec 32)
    = Agg.srcOf (m ((c : Thread nD τ).loc main_arg2)) := by
  refine (W2_of_ne m ρ c main_call0_v1 (by decide)).trans ?_
  dsimp only [W1, hostOps0]
  after_results <;> rfl

set_option maxHeartbeats 8000000 in
theorem dst (c : Dev nD) : (W2 m ρ c (Proc.devRef .tc main_call0_v3) : S600000.Idx → BitVec 32)
    = Agg.dstOf (m ((c : Thread nD τ).loc main_arg2)) := by
  refine (W2_of_ne m ρ c main_call0_v3 (by decide)).trans ?_
  dsimp only [W1, hostOps0]
  after_results <;> rfl

set_option maxHeartbeats 8000000 in
theorem arg3 (c : Dev nD) : W2 m ρ c (Proc.devRef .tc main_arg3) = (m ((c : Thread nD τ).loc main_arg3)) := by
  refine (W2_of_ne m ρ c main_arg3 (by decide)).trans ?_
  dsimp only [W1, hostOps0]
  after_results <;> rfl

set_option maxHeartbeats 8000000 in
theorem arg4 (c : Dev nD) : W2 m ρ c (Proc.devRef .tc main_arg4) = (m ((c : Thread nD τ).loc main_arg4)) := by
  refine (W2_of_ne m ρ c main_arg4 (by decide)).trans ?_
  dsimp only [W1, hostOps0]
  after_results <;> rfl

set_option maxHeartbeats 8000000 in
theorem arg5 (c : Dev nD) : W2 m ρ c (Proc.devRef .tc main_arg5) = (m ((c : Thread nD τ).loc main_arg5)) := by
  refine (W2_of_ne m ρ c main_arg5 (by decide)).trans ?_
  dsimp only [W1, hostOps0]
  after_results <;> rfl

set_option maxHeartbeats 8000000 in
theorem arg6 (c : Dev nD) : W2 m ρ c (Proc.devRef .tc main_arg6) = (m ((c : Thread nD τ).loc main_arg6)) := by
  refine (W2_of_ne m ρ c main_arg6 (by decide)).trans ?_
  dsimp only [W1, hostOps0]
  after_results <;> rfl

set_option maxHeartbeats 8000000 in
theorem arg7 (c : Dev nD) : W2 m ρ c (Proc.devRef .tc main_arg7) = (m ((c : Thread nD τ).loc main_arg7)) := by
  refine (W2_of_ne m ρ c main_arg7 (by decide)).trans ?_
  dsimp only [W1, hostOps0]
  after_results <;> rfl

set_option maxHeartbeats 8000000 in
theorem arg8 (c : Dev nD) : W2 m ρ c (Proc.devRef .tc main_arg8) = (m ((c : Thread nD τ).loc main_arg8)) := by
  refine (W2_of_ne m ρ c main_arg8 (by decide)).trans ?_
  dsimp only [W1, hostOps0]
  after_results <;> rfl

end Cert.KernelIdeal.Entry0

end
-- ==== Proof.Entry1.lean ====
/-
  The second launch: what it finds and what it leaves.

  The stretch of host operations between the first two launches aggregates the first layer's features along the same
  edges and cuts the second layer's weights and bias vectors out of the stacked parameters. Read back through the stretch
  to the buffers as the first launch left them, the launch's input arrays are the reference's stages, and the array it
  leaves is the second layer of the first layer's features.
-/
import proofs.«109705_j44908178047327_2_alg».proof.Proof.Gen.KernelIdeal.Frame
import Idealize.ShloMosaic.Lib.StableHlo.Run
import proofs.«109705_j44908178047327_2_alg».proof.Proof.RefNet
import proofs.«109705_j44908178047327_2_alg».proof.Proof.Agg
import proofs.«109705_j44908178047327_2_alg».proof.Proof.Blocks1
import proofs.«109705_j44908178047327_2_alg».proof.Proof.Entry0

set_option maxRecDepth 16384

noncomputable section

namespace Cert.KernelIdeal.Entry1

open Idealize.ShloMosaic Idealize.ShloMosaic.TcCoe Idealize.SL.Sem Idealize.ShloMosaic.StableHlo Idealize.ShloMosaic.ValueIdx
open Cert.KernelIdeal Cert.KernelIdeal.Gen Cert.LibNodeUpdate

variable (m : (ℓ : Loc nD τ sig) → Buf (Elt Ideal) ℓ) (ρ : Dev nD → PrngReg)

/-! ## What the launch finds -/

set_option maxHeartbeats 2000000 in
theorem feat (c : Dev nD) : (V3 m ρ c main_call0_v26 : S50000x128.Idx → EReal) = Entry0.H m c := by
  have e : (V3 m ρ c main_call0_v26 : S50000x128.Idx → EReal) = (W2 m ρ c (Proc.devRef .tc main_call0_v26) : S50000x128.Idx → EReal) := by
    dsimp only [V3, W3, hostOps1]
    after_results <;> rfl
  rw [e, Entry0.out]

set_option maxHeartbeats 2000000 in
theorem aggr (c : Dev nD) : (V3 m ρ c main_call0_v38 : S50000x128.Idx → EReal)
    = Cert.ReferenceIdeal.Net.agg (m ((c : Thread nD τ).loc main_arg2)) (Entry0.H m c) := by
  have e : (V3 m ρ c main_call0_v38 : S50000x128.Idx → EReal)
      = Agg.aggW (Agg.srcOf (m ((c : Thread nD τ).loc main_arg2))) (Agg.dstOf (m ((c : Thread nD τ).loc main_arg2))) (Entry0.H m c) := by
    dsimp only [V3, W3, hostOps1]
    after_results
    rw [Entry0.src, Entry0.dst, Entry0.out]
    rfl
  rw [e, Agg.aggW_rows]

set_option maxHeartbeats 2000000 in
theorem w1 (c : Dev nD) : (V3 m ρ c main_call0_v40 : S128x128.Idx → EReal)
    = Cert.ReferenceIdeal.Read.val_main_v45 (F := Ideal) (m ((c : Thread nD τ).loc main_arg3)) := by
  have e : (V3 m ρ c main_call0_v40 : S128x128.Idx → EReal)
      = Cert.ReferenceIdeal.Read.val_main_v45 (F := Ideal) (W2 m ρ c (Proc.devRef .tc main_arg3)) := by
    dsimp only [V3, W3, hostOps1]
    after_results <;> rfl
  rw [e, Entry0.arg3]

set_option maxHeartbeats 2000000 in
theorem b1 (c : Dev nD) : (V3 m ρ c main_call0_v47 : S1x128.Idx → EReal)
    = shapeCast S1x128 (Cert.ReferenceIdeal.Read.val_main_v48 (F := Ideal) (m ((c : Thread nD τ).loc main_arg4))) shapeCasts_S128_S1x128 := by
  have e : (V3 m ρ c main_call0_v47 : S1x128.Idx → EReal)
      = shapeCast S1x128 (Cert.ReferenceIdeal.Read.val_main_v48 (F := Ideal) (W2 m ρ c (Proc.devRef .tc main_arg4))) shapeCasts_S128_S1x128 := by
    dsimp only [V3, W3, hostOps1]
    after_results <;> rfl
  rw [e, Entry0.arg4]

set_option maxHeartbeats 2000000 in
theorem w2 (c : Dev nD) : (V3 m ρ c main_call0_v44 : S128x128.Idx → EReal)
    = Cert.ReferenceIdeal.Read.val_main_v54 (F := Ideal) (m ((c : Thread nD τ).loc main_arg5)) := by
  have e : (V3 m ρ c main_call0_v44 : S128x128.Idx → EReal)
      = Cert.ReferenceIdeal.Read.val_main_v54 (F := Ideal) (W2 m ρ c (Proc.devRef .tc main_arg5)) := by
    dsimp only [V3, W3, hostOps1]
    after_results <;> rfl
  rw [e, Entry0.arg5]

set_option maxHeartbeats 2000000 in
theorem b2 (c : Dev nD) : (V3 m ρ c main_call0_v48 : S1x128.Idx → EReal)
    = shapeCast S1x128 (Cert.ReferenceIdeal.Read.val_main_v57 (F := Ideal) (m ((c : Thread nD τ).loc main_arg6))) shapeCasts_S128_S1x128 := by
  have e : (V3 m ρ c main_call0_v48 : S1x128.Idx → EReal)
      = shapeCast S1x128 (Cert.ReferenceIdeal.Read.val_main_v57 (F := Ideal) (W2 m ρ c (Proc.devRef .tc main_arg6))) shapeCasts_S128_S1x128 := by
    dsimp only [V3, W3, hostOps1]
    after_results <;> rfl
  rw [e, Entry0.arg6]

/-! ## What the launch leaves -/

/-- The second layer of the first layer's features. -/
abbrev H (c : Dev nD) : S50000x128.Idx → EReal :=
  layer (Cert.ReferenceIdeal.Net.agg (m ((c : Thread nD τ).loc main_arg2)))
    (Cert.ReferenceIdeal.Read.val_main_v45 (F := Ideal) (m ((c : Thread nD τ).loc main_arg3))) (fun e => Cert.ReferenceIdeal.Read.val_main_v48 (F := Ideal) (m ((c : Thread nD τ).loc main_arg4)) (ix1 e))
    (Cert.ReferenceIdeal.Read.val_main_v54 (F := Ideal) (m ((c : Thread nD τ).loc main_arg5))) (fun e => Cert.ReferenceIdeal.Read.val_main_v57 (F := Ideal) (m ((c : Thread nD τ).loc main_arg6)) (ix1 e))
    (Entry0.H m c)

theorem out (c : Dev nD) : (W4 m ρ c (Proc.devRef .tc main_call0_v49) : S50000x128.Idx → EReal) = H m c := by
  refine (W4_arr m ρ c 6).trans ?_
  rw [Blocks1.final (V3 m ρ) c]
  unfold Blocks1.G
  rw [feat, aggr, w1, b1, w2, b2, row_of_reshape, row_of_reshape]
  rfl

/-! ## The buffers the last stretch reads, after the launch -/

set_option maxHeartbeats 2000000 in
theorem src (c : Dev nD) : (W4 m ρ c (Proc.devRef .tc main_call0_v1) : S600000.Idx → BitVec 32)
    = Agg.srcOf (m ((c : Thread nD τ).loc main_arg2)) := by
  refine (W4_of_ne m ρ c main_call0_v1 (by decide)).trans ?_
  have e : W3 m ρ c (Proc.devRef .tc main_call0_v1) = W2 m ρ c (Proc.devRef .tc main_call0_v1) := by
    dsimp only [W3, hostOps1]
    after_results <;> rfl
  rw [e, Entry0.src]

set_option maxHeartbeats 2000000 in
theorem dst (c : Dev nD) : (W4 m ρ c (Proc.devRef .tc main_call0_v3) : S600000.Idx → BitVec 32)
    = Agg.dstOf (m ((c : Thread nD τ).loc main_arg2)) := by
  refine (W4_of_ne m ρ c main_call0_v3 (by decide)).trans ?_
  have e : W3 m ρ c (Proc.devRef .tc main_call0_v3) = W2 m ρ c (Proc.devRef .tc main_call0_v3) := by
    dsimp only [W3, hostOps1]
    after_results <;> rfl
  rw [e, Entry0.dst]

set_option maxHeartbeats 2000000 in
theorem arg3 (c : Dev nD) : W4 m ρ c (Proc.devRef .tc main_arg3) = (m ((c : Thread nD τ).loc main_arg3)) := by
  refine (W4_of_ne m ρ c main_arg3 (by decide)).trans ?_
  have e : W3 m ρ c (Proc.devRef .tc main_arg3) = W2 m ρ c (Proc.devRef .tc main_arg3) := by
    dsimp only [W3, hostOps1]
    after_results <;> rfl
  rw [e, Entry0.arg3]

set_option maxHeartbeats 2000000 in
theorem arg4 (c : Dev nD) : W4 m ρ c (Proc.devRef .tc main_arg4) = (m ((c : Thread nD τ).loc main_arg4)) := by
  refine (W4_of_ne m ρ c main_arg4 (by decide)).trans ?_
  have e : W3 m ρ c (Proc.devRef .tc main_arg4) = W2 m ρ c (Proc.devRef .tc main_arg4) := by
    dsimp only [W3, hostOps1]
    after_results <;> rfl
  rw [e, Entry0.arg4]

set_option maxHeartbeats 2000000 in
theorem arg5 (c : Dev nD) : W4 m ρ c (Proc.devRef .tc main_arg5) = (m ((c : Thread nD τ).loc main_arg5)) := by
  refine (W4_of_ne m ρ c main_arg5 (by decide)).trans ?_
  have e : W3 m ρ c (Proc.devRef .tc main_arg5) = W2 m ρ c (Proc.devRef .tc main_arg5) := by
    dsimp only [W3, hostOps1]
    after_results <;> rfl
  rw [e, Entry0.arg5]

set_option maxHeartbeats 2000000 in
theorem arg6 (c : Dev nD) : W4 m ρ c (Proc.devRef .tc main_arg6) = (m ((c : Thread nD τ).loc main_arg6)) := by
  refine (W4_of_ne m ρ c main_arg6 (by decide)).trans ?_
  have e : W3 m ρ c (Proc.devRef .tc main_arg6) = W2 m ρ c (Proc.devRef .tc main_arg6) := by
    dsimp only [W3, hostOps1]
    after_results <;> rfl
  rw [e, Entry0.arg6]

set_option maxHeartbeats 2000000 in
theorem arg7 (c : Dev nD) : W4 m ρ c (Proc.devRef .tc main_arg7) = (m ((c : Thread nD τ).loc main_arg7)) := by
  refine (W4_of_ne m ρ c main_arg7 (by decide)).trans ?_
  have e : W3 m ρ c (Proc.devRef .tc main_arg7) = W2 m ρ c (Proc.devRef .tc main_arg7) := by
    dsimp only [W3, hostOps1]
    after_results <;> rfl
  rw [e, Entry0.arg7]

set_option maxHeartbeats 2000000 in
theorem arg8 (c : Dev nD) : W4 m ρ c (Proc.devRef .tc main_arg8) = (m ((c : Thread nD τ).loc main_arg8)) := by
  refine (W4_of_ne m ρ c main_arg8 (by decide)).trans ?_
  have e : W3 m ρ c (Proc.devRef .tc main_arg8) = W2 m ρ c (Proc.devRef .tc main_arg8) := by
    dsimp only [W3, hostOps1]
    after_results <;> rfl
  rw [e, Entry0.arg8]

end Cert.KernelIdeal.Entry1

end
-- ==== Proof.Entry2.lean ====
/-
  The third launch: what it finds and what it leaves.

  The stretch of host operations before the last launch aggregates the second layer's features along the same edges, cuts
  the third layer's weights and bias vectors out of the stacked parameters and lays the classifier's bias vector as a row.
  Read back through the stretch to the buffers as the second launch left them, the launch's input arrays are the
  reference's stages, and the result array it leaves is the whole network of the input features.
-/
import proofs.«109705_j44908178047327_2_alg».proof.Proof.Gen.KernelIdeal.Frame
import Idealize.ShloMosaic.Lib.StableHlo.Run
import proofs.«109705_j44908178047327_2_alg».proof.Proof.RefNet
import proofs.«109705_j44908178047327_2_alg».proof.Proof.Agg
import proofs.«109705_j44908178047327_2_alg».proof.Proof.Blocks2
import proofs.«109705_j44908178047327_2_alg».proof.Proof.Entry1

set_option maxRecDepth 16384

noncomputable section

namespace Cert.KernelIdeal.Entry2

open Idealize.ShloMosaic Idealize.ShloMosaic.TcCoe Idealize.SL.Sem Idealize.ShloMosaic.StableHlo Idealize.ShloMosaic.ValueIdx
open Cert.KernelIdeal Cert.KernelIdeal.Gen Cert.LibNodeUpdate

variable (m : (ℓ : Loc nD τ sig) → Buf (Elt Ideal) ℓ) (ρ : Dev nD → PrngReg)

/-! ## What the launch finds -/

set_option maxHeartbeats 2000000 in
theorem feat (c : Dev nD) : (V5 m ρ c main_call0_v49 : S50000x128.Idx → EReal) = Entry1.H m c := by
  have e : (V5 m ρ c main_call0_v49 : S50000x128.Idx → EReal) = (W4 m ρ c (Proc.devRef .tc main_call0_v49) : S50000x128.Idx → EReal) := by
    dsimp only [V5, W5, hostOps2]
    after_results <;> rfl
  rw [e, Entry1.out]

set_option maxHeartbeats 2000000 in
theorem aggr (c : Dev nD) : (V5 m ρ c main_call0_v61 : S50000x128.Idx → EReal)
    = Cert.ReferenceIdeal.Net.agg (m ((c : Thread nD τ).loc main_arg2)) (Entry1.H m c) := by
  have e : (V5 m ρ c main_call0_v61 : S50000x128.Idx → EReal)
      = Agg.aggW (Agg.srcOf (m ((c : Thread nD τ).loc main_arg2))) (Agg.dstOf (m ((c : Thread nD τ).loc main_arg2))) (Entry1.H m c) := by
    dsimp only [V5, W5, hostOps2]
    after_results
    rw [Entry1.src, Entry1.dst, Entry1.out]
    rfl
  rw [e, Agg.aggW_rows]

set_option maxHeartbeats 2000000 in
theorem w1 (c : Dev nD) : (V5 m ρ c main_call0_v63 : S128x128.Idx → EReal)
    = Cert.ReferenceIdeal.Read.val_main_v74 (F := Ideal) (m ((c : Thread nD τ).loc main_arg3)) := by
  have e : (V5 m ρ c main_call0_v63 : S128x128.Idx → EReal)
      = Cert.ReferenceIdeal.Read.val_main_v74 (F := Ideal) (W4 m ρ c (Proc.devRef .tc main_arg3)) := by
    dsimp only [V5, W5, hostOps2]
    after_results <;> rfl
  rw [e, Entry1.arg3]

set_option maxHeartbeats 2000000 in
theorem b1 (c : Dev nD) : (V5 m ρ c main_call0_v70 : S1x128.Idx → EReal)
    = shapeCast S1x128 (Cert.ReferenceIdeal.Read.val_main_v77 (F := Ideal) (m ((c : Thread nD τ).loc main_arg4))) shapeCasts_S128_S1x128 := by
  have e : (V5 m ρ c main_call0_v70 : S1x128.Idx → EReal)
      = shapeCast S1x128 (Cert.ReferenceIdeal.Read.val_main_v77 (F := Ideal) (W4 m ρ c (Proc.devRef .tc main_arg4))) shapeCasts_S128_S1x128 := by
    dsimp only [V5, W5, hostOps2]
    after_results <;> rfl
  rw [e, Entry1.arg4]

set_option maxHeartbeats 2000000 in
theorem w2 (c : Dev nD) : (V5 m ρ c main_call0_v67 : S128x128.Idx → EReal)
    = Cert.ReferenceIdeal.Read.val_main_v83 (F := Ideal) (m ((c : Thread nD τ).loc main_arg5)) := by
  have e : (V5 m ρ c main_call0_v67 : S128x128.Idx → EReal)
      = Cert.ReferenceIdeal.Read.val_main_v83 (F := Ideal) (W4 m ρ c (Proc.devRef .tc main_arg5)) := by
    dsimp only [V5, W5, hostOps2]
    after_results <;> rfl
  rw [e, Entry1.arg5]

set_option maxHeartbeats 2000000 in
theorem b2 (c : Dev nD) : (V5 m ρ c main_call0_v71 : S1x128.Idx → EReal)
    = shapeCast S1x128 (Cert.ReferenceIdeal.Read.val_main_v86 (F := Ideal) (m ((c : Thread nD τ).loc main_arg6))) shapeCasts_S128_S1x128 := by
  have e : (V5 m ρ c main_call0_v71 : S1x128.Idx → EReal)
      = shapeCast S1x128 (Cert.ReferenceIdeal.Read.val_main_v86 (F := Ideal) (W4 m ρ c (Proc.devRef .tc main_arg6))) shapeCasts_S128_S1x128 := by
    dsimp only [V5, W5, hostOps2]
    after_results <;> rfl
  rw [e, Entry1.arg6]

set_option maxHeartbeats 2000000 in
theorem wc (c : Dev nD) : (V5 m ρ c main_arg7 : S128x40.Idx → EReal) = (m ((c : Thread nD τ).loc main_arg7)) := by
  have e : (V5 m ρ c main_arg7 : S128x40.Idx → EReal) = W4 m ρ c (Proc.devRef .tc main_arg7) := by
    dsimp only [V5, W5, hostOps2]
    after_results <;> rfl
  rw [e, Entry1.arg7]

set_option maxHeartbeats 2000000 in
theorem bc (c : Dev nD) : (V5 m ρ c main_call0_v72 : S1x40.Idx → EReal)
    = shapeCast S1x40 (m ((c : Thread nD τ).loc main_arg8)) shapeCasts_S40_S1x40 := by
  have e : (V5 m ρ c main_call0_v72 : S1x40.Idx → EReal)
      = shapeCast S1x40 (W4 m ρ c (Proc.devRef .tc main_arg8)) shapeCasts_S40_S1x40 := by
    dsimp only [V5, W5, hostOps2]
    after_results <;> rfl
  rw [e, Entry1.arg8]

/-! ## What the launch leaves -/

/-- The result buffer at the end of the run: the network of the input features. -/
theorem out (c : Dev nD) : (W6 m ρ c (Proc.devRef .tc main_v0) : S50000x40.Idx → EReal)
    = net (Cert.ReferenceIdeal.Net.agg (m ((c : Thread nD τ).loc main_arg2)))
        (Cert.ReferenceIdeal.Read.val_main_v16 (F := Ideal) (m ((c : Thread nD τ).loc main_arg3))) (fun e => Cert.ReferenceIdeal.Read.val_main_v19 (F := Ideal) (m ((c : Thread nD τ).loc main_arg4)) (ix1 e))
        (Cert.ReferenceIdeal.Read.val_main_v25 (F := Ideal) (m ((c : Thread nD τ).loc main_arg5))) (fun e => Cert.ReferenceIdeal.Read.val_main_v28 (F := Ideal) (m ((c : Thread nD τ).loc main_arg6)) (ix1 e))
        (Cert.ReferenceIdeal.Read.val_main_v45 (F := Ideal) (m ((c : Thread nD τ).loc main_arg3))) (fun e => Cert.ReferenceIdeal.Read.val_main_v48 (F := Ideal) (m ((c : Thread nD τ).loc main_arg4)) (ix1 e))
        (Cert.ReferenceIdeal.Read.val_main_v54 (F := Ideal) (m ((c : Thread nD τ).loc main_arg5))) (fun e => Cert.ReferenceIdeal.Read.val_main_v57 (F := Ideal) (m ((c : Thread nD τ).loc main_arg6)) (ix1 e))
        (Cert.ReferenceIdeal.Read.val_main_v74 (F := Ideal) (m ((c : Thread nD τ).loc main_arg3))) (fun e => Cert.ReferenceIdeal.Read.val_main_v77 (F := Ideal) (m ((c : Thread nD τ).loc main_arg4)) (ix1 e))
        (Cert.ReferenceIdeal.Read.val_main_v83 (F := Ideal) (m ((c : Thread nD τ).loc main_arg5))) (fun e => Cert.ReferenceIdeal.Read.val_main_v86 (F := Ideal) (m ((c : Thread nD τ).loc main_arg6)) (ix1 e))
        ((m ((c : Thread nD τ).loc main_arg7)) : S128x40.Idx → EReal) (fun e => ((m ((c : Thread nD τ).loc main_arg8)) : S40.Idx → EReal) (ix1 e))
        (m ((c : Thread nD τ).loc main_arg0)) := by
  refine (W6_arr m ρ c 8).trans ?_
  rw [Blocks2.final (V5 m ρ) c]
  unfold Blocks2.G Blocks2.U
  rw [feat, aggr, w1, b1, w2, b2, wc, bc, row_of_reshape, row_of_reshape, row_of_reshape]
  unfold net Entry1.H Entry0.H
  rfl

end Cert.KernelIdeal.Entry2

end
-- ==== Proof.lean ====
/-
  A three-layer sum-aggregating graph network with a linear classifier head, as a tiled kernel program and as plain array
  code, compute the same function of their inputs on the extended reals.

  Each layer gathers the rows of the node features `h` at the edges' source nodes, sums them into the rows of the
  destination nodes (`g`), and maps every row `h_r + g_r` through two affine maps each clamped at zero,
  `max (max ((h_r + g_r)·W1 + b1) 0 · W2 + b2) 0`; the head is one more affine map of the last layer's rows. The kernel
  program does the gather and the scatter-add with the same two host operations as the reference (the features pass through
  the shorter float format on the way, the identity here), and does the row maps in three launches, each over 25 blocks of
  2000 rows with the weights resident; the last launch also applies the head. A row's image depends on that row alone, so
  the blocks put together are the images of all rows; a product with a zero accumulator is the plain sum over the
  contracted coordinate, as the host's product is; the bias reaches the kernel as a one-row matrix and the host as a vector.
  No sum is regrouped and nothing is cancelled, so the inputs' finiteness is not used.

  The three frames are the generated ones (the reference's is its generated run with the result dropped); the kernel's
  idealization rewrites nothing, so `preserves` is trivial.
-/
import proofs.«109705_j44908178047327_2_alg».proof.Defs
import proofs.«109705_j44908178047327_2_alg».proof.Proof.Gen.Kernel
import proofs.«109705_j44908178047327_2_alg».proof.Proof.Gen.Kernel.Skeleton
import proofs.«109705_j44908178047327_2_alg».proof.Proof.Gen.Kernel.Launch
import proofs.«109705_j44908178047327_2_alg».proof.Proof.Gen.Kernel.Points
import proofs.«109705_j44908178047327_2_alg».proof.Proof.Gen.Kernel.Frame
import proofs.«109705_j44908178047327_2_alg».proof.Proof.Gen.KernelIdeal
import proofs.«109705_j44908178047327_2_alg».proof.Proof.Gen.KernelIdeal.Skeleton
import proofs.«109705_j44908178047327_2_alg».proof.Proof.Gen.KernelIdeal.Launch
import proofs.«109705_j44908178047327_2_alg».proof.Proof.Gen.KernelIdeal.Points
import proofs.«109705_j44908178047327_2_alg».proof.Proof.Gen.KernelIdeal.Frame
import proofs.«109705_j44908178047327_2_alg».proof.Proof.Gen.ReferenceIdeal
import proofs.«109705_j44908178047327_2_alg».proof.Proof.Gen.Pre_finite_inputs
import proofs.«109705_j44908178047327_2_alg».proof.Proof.Gen.ReferenceIdeal.Run
import proofs.«109705_j44908178047327_2_alg».proof.Proof.Gen.ReferenceIdeal.Read
import proofs.«109705_j44908178047327_2_alg».proof.Proof.WholeRun
import proofs.«109705_j44908178047327_2_alg».proof.Proof.RefNet
import proofs.«109705_j44908178047327_2_alg».proof.Proof.Entry2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network function of the (agreeing) arguments in their result buffers. -/
theorem algebraic : Cert.algebraic_KernelIdeal_ReferenceIdeal := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (Cert.KernelIdeal.Whole.run_result (F := Ideal) m ρ)
    exact (Cert.KernelIdeal.Entry2.out m ρ c).trans
      (Cert.ReferenceIdeal.Net.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8⟩ := hagree c
    rw [Cert.ReferenceIdeal.Read.val_main_v94_eq, h0, h2, h3, h4, h5, h6, h7, h8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
